-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 51
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S1x128, .f32⟩
  | .hbm, ⟨27, _⟩ => ⟨S1x128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S1x128, .f32⟩
  | .hbm, ⟨50, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result named.

  The program is two pallas regions among three stretches of host operations. Its generated frame walks the buffer
  contents through the four segment boundaries (launch → W1 → W2 → W3 → W4) and ends with every unscoped TensorCore
  buffer at W4. Reading the result buffer, as well as the argument buffers, out of that last state gives: every weakly
  fair execution terminates with the result at `W4 … main_v34` and the arguments unchanged.
-/
import proofs.«104694_j46986942218275_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KValue

end
-- ==== Proof.KPieces.lean ====
/-
  What the statistics kernel's body leaves in its three output staging buffers, as values.

  The body stores h (the block's activations) into the first output, and adds the block's column sums of h and of h²
  into the two running-sum outputs; at the first grid point it zeroes those two before adding. Each staging buffer is
  written through its whole extent, so reading the stores back gives the stored value: the activations, the previous
  running sum plus this block's column sums (from zero at the first point), and likewise for the squares.
-/
import proofs.«104694_j46986942218275_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F]

theorem hz : (![0, 0] : Fin 2 → Nat) = fun _ => 0 := funext fun a => by fin_cases a <;> rfl

/-- Later points, first output: the block's activations. -/
theorem out_B5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S2000x128 .f32) (x1 : Vec F S2000x128 .f32) (x2 : Vec F S128x128 .f32) (x3 : Vec F S128x128 .f32) (x4 : Vec F S1x128 .f32) (xo6 xo7 : Vec F S1x128 .f32) :
    out0_B_5 c i arg1 harg1 arg2 harg2 arg3 harg3 arg4 harg4 arg5 harg5 arg6 harg6 arg7 harg7 arg8 harg8 hc0 x0 x1 x2 x3 x4 xo6 xo7 = k0_pay3 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points, running column sums: what the point before left, plus this block's column sums. -/
theorem out_B6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S2000x128 .f32) (x1 : Vec F S2000x128 .f32) (x2 : Vec F S128x128 .f32) (x3 : Vec F S128x128 .f32) (x4 : Vec F S1x128 .f32) (xo6 xo7 : Vec F S1x128 .f32) :
    out0_B_6 c i arg1 harg1 arg2 harg2 arg3 harg3 arg4 harg4 arg5 harg5 arg6 harg6 arg7 harg7 arg8 harg8 hc0 x0 x1 x2 x3 x4 xo6 xo7 = k0_pay4 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- Later points, running column sums of squares. -/
theorem out_B7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S2000x128 .f32) (x1 : Vec F S2000x128 .f32) (x2 : Vec F S128x128 .f32) (x3 : Vec F S128x128 .f32) (x4 : Vec F S1x128 .f32) (xo6 xo7 : Vec F S1x128 .f32) :
    out0_B_7 c i arg1 harg1 arg2 harg2 arg3 harg3 arg4 harg4 arg5 harg5 arg6 harg6 arg7 harg7 arg8 harg8 hc0 x0 x1 x2 x3 x4 xo6 xo7 = k0_pay5 x0 x1 x2 x3 x4 xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point, first output: the block's activations. -/
theorem out_A5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S2000x128 .f32) (x1 : Vec F S2000x128 .f32) (x2 : Vec F S128x128 .f32) (x3 : Vec F S128x128 .f32) (x4 : Vec F S1x128 .f32) :
    out0_A_5 c i arg1 harg1 arg2 harg2 arg3 harg3 arg4 harg4 arg5 harg5 arg6 harg6 arg7 harg7 arg8 harg8 hc0 x0 x1 x2 x3 x4 = k0_pay3 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point, running column sums: the zero row just stored, plus this block's column sums. -/
theorem out_A6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S2000x128 .f32) (x1 : Vec F S2000x128 .f32) (x2 : Vec F S128x128 .f32) (x3 : Vec F S128x128 .f32) (x4 : Vec F S1x128 .f32) :
    out0_A_6 c i arg1 harg1 arg2 harg2 arg3 harg3 arg4 harg4 arg5 harg5 arg6 harg6 arg7 harg7 arg8 harg8 hc0 x0 x1 x2 x3 x4 = k0_pay4 x0 x1 x2 x3 x4 (k0_pay1 (F := F)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

/-- First point, running column sums of squares: the zero row just stored, plus this block's column sums of squares. -/
theorem out_A7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S2000x128 .f32) (x1 : Vec F S2000x128 .f32) (x2 : Vec F S128x128 .f32) (x3 : Vec F S128x128 .f32) (x4 : Vec F S1x128 .f32) :
    out0_A_7 c i arg1 harg1 arg2 harg2 arg3 harg3 arg4 harg4 arg5 harg5 arg6 harg6 arg7 harg7 arg8 harg8 hc0 x0 x1 x2 x3 x4 = k0_pay5 x0 x1 x2 x3 x4 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread, View.ld_unit_zero (S := S2000x128) hz, View.ld_unit_zero (S := S128x128) hz, View.ld_unit_zero (S := S1x128) hz]

end Cert.KernelIdeal.KPieces

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«104694_j46986942218275_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«104694_j46986942218275_2_alg».proof.Proof.LibMatmulPlain
import proofs.«104694_j46986942218275_2_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.KPay.lean ====
/-
  The statistics kernel's arithmetic at an entry, over the extended reals.

  For one block of 2000 rows: the activations at (r, q) are (Σ_k a(r,k)·W_rel(k,q) + b(q)) + Σ_k x(r,k)·W_root(k,q)
  (two products on the matrix unit into zero accumulators, the roundings to bf16 the identity at the ideal values, the
  bias row broadcast over the rows); the new running column sum at q is the previous one plus Σ_r of the block's
  activations at (r, q), and the new running sum of squares the previous one plus Σ_r of their squares.
-/
import proofs.«104694_j46986942218275_2_alg».proof.Proof.Gen.KernelIdeal.Skeleton
import proofs.«104694_j46986942218275_2_alg».proof.Proof.LibDense
import proofs.«104694_j46986942218275_2_alg».proof.Proof.LibRowReduce
import Idealize.ShloMosaic.Lib.ValueLayout
import Idealize.ShloMosaic.Lib.Pipeline.Value

noncomputable section

open scoped BigOperators

namespace Cert.KernelIdeal.KPay

open Cert.KernelIdeal Cert.KernelIdeal.Gen
open Idealize.ShloMosaic Idealize.ShloMosaic.ValueIdx

variable (v3 v5 : Vec Ideal S2000x128 .f32) (v8 v10 : Vec Ideal S128x128 .f32) (v13 : Vec Ideal S1x128 .f32)

/-- One block's activations at row r, feature q. -/
def hBlk (r : Fin 2000) (q : Fin 128) : EReal :=
  (∑ k : Fin 128, v5 (ix2 r k) * v10 (ix2 k q) + v13 (ix2 (0 : Fin 1) q)) + ∑ k : Fin 128, v3 (ix2 r k) * v8 (ix2 k q)

/-- The stored activations at an entry. -/
theorem pay3_apply (r : Fin 2000) (q : Fin 128) :
    k0_pay3 (F := Ideal) v3 v5 v8 v10 v13 (ix2 r q) = hBlk v3 v5 v8 v10 v13 r q := by
  unfold k0_pay3 hBlk
  (try dsimp only)
  simp only [shapeCast_self]
  show _ + _ = _ + _
  refine congrArg₂ (· + ·) ?_ ?_
  · exact Dense.matmul_bias_apply (M := 2000) (K := 128) (N := 128) (truncf .bf16 v5 bitsLt_bf16_f32)
      (truncf .bf16 v10 bitsLt_bf16_f32) v13 broadcasts_S1x128_S2000x128 r q
  · exact MatmulPlain.matmul_zero_apply (M := 2000) (K := 128) (N := 128) none (truncf .bf16 v3 bitsLt_bf16_f32)
      (truncf .bf16 v8 bitsLt_bf16_f32) (ix2 r q)

/-- The column sums of a block, as the lane reduction along the rows gives them, put back as one row. -/
theorem colrow_apply (hh : FVec Ideal S2000x128 .f32) (q : Fin 128) :
    shapeCast S1x128 (multiReduction .add [0] S128 hh 0x00000000#32 reduces_S2000x128_S128 (.inl rfl) rfl) shapeCasts_S128_S1x128
        (ix2 (0 : Fin 1) q)
      = ∑ r : Fin 2000, hh (ix2 r q) := by
  refine (shapeCast_a_1a_apply _ shapeCasts_S128_S1x128 (0 : Fin 1) q).trans ?_
  exact RowReduce.colSum_apply (a := 2000) (b := 128) hh 0x00000000#32 reduces_S2000x128_S128 (.inl rfl) rfl q

/-- The new running column sum at q: the previous one plus the block's column sum. -/
theorem pay4_apply (v20 : Vec Ideal S1x128 .f32) (q : Fin 128) :
    k0_pay4 (F := Ideal) v3 v5 v8 v10 v13 v20 (ix2 (0 : Fin 1) q)
      = v20 (ix2 (0 : Fin 1) q) + ∑ r : Fin 2000, hBlk v3 v5 v8 v10 v13 r q := by
  unfold k0_pay4
  (try dsimp only)
  simp only [shapeCast_self]
  show _ + _ = _ + _
  refine congrArg (v20 (ix2 (0 : Fin 1) q) + ·) ?_
  refine (colrow_apply _ q).trans ?_
  exact Finset.sum_congr rfl fun r _ => pay3_apply v3 v5 v8 v10 v13 r q

/-- The new running column sum of squares at q. -/
theorem pay5_apply (v26 : Vec Ideal S1x128 .f32) (q : Fin 128) :
    k0_pay5 (F := Ideal) v3 v5 v8 v10 v13 v26 (ix2 (0 : Fin 1) q)
      = v26 (ix2 (0 : Fin 1) q) + ∑ r : Fin 2000, hBlk v3 v5 v8 v10 v13 r q * hBlk v3 v5 v8 v10 v13 r q := by
  unfold k0_pay5
  (try dsimp only)
  simp only [shapeCast_self]
  show _ + _ = _ + _
  refine congrArg (v26 (ix2 (0 : Fin 1) q) + ·) ?_
  refine (colrow_apply _ q).trans ?_
  refine Finset.sum_congr rfl fun r _ => ?_
  show k0_pay3 (F := Ideal) v3 v5 v8 v10 v13 (ix2 r q) * k0_pay3 (F := Ideal) v3 v5 v8 v10 v13 (ix2 r q) = _
  rw [pay3_apply]

/-- The zero row the first point stores, at an entry. -/
theorem pay1_apply (j : S1x128.Idx) : k0_pay1 (F := Ideal) j = Ideal.ofBits .f32 0x00000000#32 := rfl
theorem pay2_apply (j : S1x128.Idx) : k0_pay2 (F := Ideal) j = Ideal.ofBits .f32 0x00000000#32 := rfl

end Cert.KernelIdeal.KPay

end
-- ==== Proof.Spec.lean ====
/-
  The two closed forms of a graph convolution followed by batch normalisation over the node axis and a ReLU, on the
  extended reals, for 100000 nodes and 128 features.

  With h the pre-normalisation activations (an aggregated-neighbour product, a bias and a root product), both programs
  normalise each column q of h by its mean μ_q = (Σ_n h(n,q)) / N and a variance, scale by γ, shift by β and clamp at 0:

  * the one-pass form takes the variance as max(Σ_n h(n,q)² / N − μ_q², 0), folds γ and the reciprocal square root into a
    scale s_q = γ_q · rsqrt(var_q + ε) and a shift β_q − μ_q · s_q, and returns max(h · s + shift, 0);
  * the two-pass form takes the variance as Σ_n (h(n,q) − μ_q)² / N and returns max((h − μ) · rsqrt(var + ε) · γ + β, 0).

  N, ε and 0 are the f32 words the programs carry (100000, the f32 nearest 1e-5, and zero); nothing here evaluates them.
-/
import Idealize.ShloMosaic.PureOps.Ideal
import Idealize.ShloMosaic.Lib.ValueIdx

noncomputable section

open scoped BigOperators

namespace Cert.GraphBn

open Idealize.ShloMosaic Idealize.ShloMosaic.ValueIdx

/-- The node count as the programs carry it: the f32 word of 100000. -/
def nWord : EReal := Ideal.ofBits .f32 0x47C35000#32
/-- The variance offset: the f32 word nearest 1e-5. -/
def epsWord : EReal := Ideal.ofBits .f32 0x3727C5AC#32
/-- The f32 zero word. -/
def zeroWord : EReal := Ideal.ofBits .f32 0x00000000#32

/-- The activations before normalisation at node p, feature q: (Σ_k aggr(p,k)·W_rel(k,q) + b(q)) + Σ_k x(p,k)·W_root(k,q). -/
def hAt (x aggr : (⟨2, ![100000, 128]⟩ : Shape).Idx → EReal) (wroot wrel : (⟨2, ![128, 128]⟩ : Shape).Idx → EReal)
    (brel : (⟨1, ![128]⟩ : Shape).Idx → EReal) (p : Fin 100000) (q : Fin 128) : EReal :=
  (∑ k : Fin 128, aggr (ix2 p k) * wrel (ix2 k q) + brel (ix1 q)) + ∑ k : Fin 128, x (ix2 p k) * wroot (ix2 k q)

variable (h : Fin 100000 → Fin 128 → EReal) (γ β : Fin 128 → EReal)

/-- Column sums and column sums of squares over the nodes. -/
def colSum (q : Fin 128) : EReal := ∑ n : Fin 100000, h n q
def colSumSq (q : Fin 128) : EReal := ∑ n : Fin 100000, h n q * h n q
/-- The column mean. -/
def mean (q : Fin 128) : EReal := Ideal.div (colSum h q) nWord

/-- One-pass variance, clamped at zero. -/
def varK (q : Fin 128) : EReal := max (Ideal.div (colSumSq h q) nWord - mean h q * mean h q) zeroWord
/-- The folded scale and shift. -/
def scaleK (q : Fin 128) : EReal := γ q * Ideal.rsqrt (varK h q + epsWord)
def shiftK (q : Fin 128) : EReal := β q - mean h q * scaleK h γ q
/-- The one-pass result. -/
def outK (p : Fin 100000) (q : Fin 128) : EReal := max (h p q * scaleK h γ q + shiftK h γ β q) zeroWord

/-- Two-pass variance. -/
def varR (q : Fin 128) : EReal := Ideal.div (∑ n : Fin 100000, (h n q - mean h q) * (h n q - mean h q)) nWord
/-- The two-pass result. -/
def outR (p : Fin 100000) (q : Fin 128) : EReal :=
  max ((h p q - mean h q) * Ideal.rsqrt (varR h q + epsWord) * γ q + β q) zeroWord

end Cert.GraphBn

end
-- ==== Proof.KStats.lean ====
/-
  The first pallas region's three output arrays, as functions of what the region finds in its input arrays.

  The region walks the 100000 nodes in 50 blocks of 2000 rows. At block t it stores the block's activations h — for row r
  of the block that is row 2000·t + r of the whole array — and adds the block's column sums of h and of h² into two
  one-row running sums that are zeroed at the first block and written back after the last. So the first output array
  ends holding h row by row, and the two one-row outputs the column sums of h and of h² over all nodes: by induction
  on the block, the running sum after block n is the sum of the first n + 1 blocks' column sums, and fifty runs of 2000
  consecutive rows are all 100000 rows.
-/
import proofs.«104694_j46986942218275_2_alg».proof.Proof.Gen.KernelIdeal.Frame
import proofs.«104694_j46986942218275_2_alg».proof.Proof.KPieces
import proofs.«104694_j46986942218275_2_alg».proof.Proof.KPay
import proofs.«104694_j46986942218275_2_alg».proof.Proof.Spec
import Idealize.ShloMosaic.Lib.Pipeline.Value
import Idealize.ShloMosaic.Lib.ValueIdx

set_option maxRecDepth 16384

noncomputable section

open scoped BigOperators

namespace Cert.KernelIdeal.KStats

open Cert.KernelIdeal Cert.KernelIdeal.Gen Cert.KernelIdeal.KPay Cert.KernelIdeal.KPieces
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block index of every window at every point: the three row-blocked windows move with the point along the rows,
    the others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem N50 : cfg0.N = 50 := N_0

/-- Row r of block t is row 2000·t + r of the array. -/
def rowOf (t : Fin cfg0.N) (r : Fin 2000) : Fin 100000 :=
  ⟨2000 * t.val + r.val, by have := t.isLt; have := N50; have := r.isLt; omega⟩

/-- The arrays as the region finds them. -/
abbrev X (c : Dev nD) : S100000x128.Idx → EReal := V c main_arg0
abbrev A (c : Dev nD) : S100000x128.Idx → EReal := V c main_v13
abbrev Wroot (c : Dev nD) : S128x128.Idx → EReal := V c main_arg2
abbrev Wrel (c : Dev nD) : S128x128.Idx → EReal := V c main_arg3
abbrev Brow (c : Dev nD) : S1x128.Idx → EReal := V c main_v14

/-- The activations of node p at feature q, from the arrays the region finds. -/
def Hf (c : Dev nD) (p : Fin 100000) (q : Fin 128) : EReal :=
  Cert.GraphBn.hAt (X V c) (A V c) (Wroot V c) (Wrel V c) (fun j => Brow V c (ix2 (0 : Fin 1) (j 0))) p q

/-! ## The input blocks, read at an entry -/

theorem blk0_apply (c : Dev nD) (t : Fin cfg0.N) (r : Fin 2000) (k : Fin 128) :
    (iblk0 V c 0 t : Vec Ideal S2000x128 .f32) (ix2 r k) = X V c (ix2 (rowOf t r) k) := by
  unfold iblk0
  rw [View.read_apply]
  show V c main_arg0 (((cfg0.win 0).blk t).view.emb (ix2 r k)) = V c main_arg0 (ix2 (rowOf t r) k)
  refine congrArg (V c main_arg0) ?_
  obtain ⟨e0, e1, -⟩ := idx_facts t
  funext a; apply Fin.ext
  match a with
  | ⟨0, _⟩ => show win0_0.index t (0 : Fin 2) * 2000 + 1 * r.val = 2000 * t.val + r.val; rw [e0]; omega
  | ⟨1, _⟩ => show win0_0.index t (1 : Fin 2) * 128 + 1 * k.val = k.val; rw [e1]; omega

theorem blk1_apply (c : Dev nD) (t : Fin cfg0.N) (r : Fin 2000) (k : Fin 128) :
    (iblk0 V c 1 t : Vec Ideal S2000x128 .f32) (ix2 r k) = A V c (ix2 (rowOf t r) k) := by
  unfold iblk0
  rw [View.read_apply]
  show V c main_v13 (((cfg0.win 1).blk t).view.emb (ix2 r k)) = V c main_v13 (ix2 (rowOf t r) k)
  refine congrArg (V c main_v13) ?_
  obtain ⟨-, -, e0, e1, -⟩ := idx_facts t
  funext a; apply Fin.ext
  match a with
  | ⟨0, _⟩ => show win0_1.index t (0 : Fin 2) * 2000 + 1 * r.val = 2000 * t.val + r.val; rw [e0]; omega
  | ⟨1, _⟩ => show win0_1.index t (1 : Fin 2) * 128 + 1 * k.val = k.val; rw [e1]; omega

theorem blk2_apply (c : Dev nD) (t : Fin cfg0.N) (k q : Fin 128) :
    (iblk0 V c 2 t : Vec Ideal S128x128 .f32) (ix2 k q) = Wroot V c (ix2 k q) := by
  unfold iblk0
  rw [View.read_apply]
  show V c main_arg2 (((cfg0.win 2).blk t).view.emb (ix2 k q)) = V c main_arg2 (ix2 k q)
  refine congrArg (V c main_arg2) ?_
  obtain ⟨-, -, -, -, e0, e1, -⟩ := idx_facts t
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem blk3_apply (c : Dev nD) (t : Fin cfg0.N) (k q : Fin 128) :
    (iblk0 V c 3 t : Vec Ideal S128x128 .f32) (ix2 k q) = Wrel V c (ix2 k q) := by
  unfold iblk0
  rw [View.read_apply]
  show V c main_arg3 (((cfg0.win 3).blk t).view.emb (ix2 k q)) = V c main_arg3 (ix2 k q)
  refine congrArg (V c main_arg3) ?_
  obtain ⟨-, -, -, -, -, -, e0, e1, -⟩ := idx_facts t
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem blk4_apply (c : Dev nD) (t : Fin cfg0.N) (q : Fin 128) :
    (iblk0 V c 4 t : Vec Ideal S1x128 .f32) (ix2 (0 : Fin 1) q) = Brow V c (ix2 (0 : Fin 1) q) := by
  unfold iblk0
  rw [View.read_apply]
  show V c main_v14 (((cfg0.win 4).blk t).view.emb (ix2 (0 : Fin 1) q)) = V c main_v14 (ix2 (0 : Fin 1) q)
  refine congrArg (V c main_v14) ?_
  obtain ⟨-, -, -, -, -, -, -, -, e0, e1, -⟩ := idx_facts t
  funext a; apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- A block's activations are the array's activations at the block's rows. -/
theorem hBlk_iblk (c : Dev nD) (t : Fin cfg0.N) (r : Fin 2000) (q : Fin 128) :
    hBlk (iblk0 V c 0 t) (iblk0 V c 1 t) (iblk0 V c 2 t) (iblk0 V c 3 t) (iblk0 V c 4 t) r q = Hf V c (rowOf t r) q := by
  unfold hBlk Hf Cert.GraphBn.hAt
  simp only [blk0_apply, blk1_apply, blk2_apply, blk3_apply, blk4_apply]

/-! ## What the staging buffers hold after each point -/

/-- At the first point: the block's activations, and the block's column sums over a zero row. -/
theorem step_first (c : Dev nD) (n : ℕ) (hn : n < cfg0.N) (h0 : n % 50 = 0) :
    outsAt0 V c n hn
      = (k0_pay3 (iblk0 V c 0 ⟨n, hn⟩) (iblk0 V c 1 ⟨n, hn⟩) (iblk0 V c 2 ⟨n, hn⟩) (iblk0 V c 3 ⟨n, hn⟩) (iblk0 V c 4 ⟨n, hn⟩),
         k0_pay4 (iblk0 V c 0 ⟨n, hn⟩) (iblk0 V c 1 ⟨n, hn⟩) (iblk0 V c 2 ⟨n, hn⟩) (iblk0 V c 3 ⟨n, hn⟩) (iblk0 V c 4 ⟨n, hn⟩) (k0_pay1 (F := Ideal)),
         k0_pay5 (iblk0 V c 0 ⟨n, hn⟩) (iblk0 V c 1 ⟨n, hn⟩) (iblk0 V c 2 ⟨n, hn⟩) (iblk0 V c 3 ⟨n, hn⟩) (iblk0 V c 4 ⟨n, hn⟩) (k0_pay2 (F := Ideal))) :=
  (outsAt0_A V c ⟨n, hn⟩ h0).trans
    (congrArg₂ Prod.mk
      (out_A5 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) ((hcond0_0 ⟨n, hn⟩).mpr h0) (iblk0 V c 0 ⟨n, hn⟩) (iblk0 V c 1 ⟨n, hn⟩) (iblk0 V c 2 ⟨n, hn⟩) (iblk0 V c 3 ⟨n, hn⟩) (iblk0 V c 4 ⟨n, hn⟩))
      (congrArg₂ Prod.mk
        (out_A6 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) ((hcond0_0 ⟨n, hn⟩).mpr h0) (iblk0 V c 0 ⟨n, hn⟩) (iblk0 V c 1 ⟨n, hn⟩) (iblk0 V c 2 ⟨n, hn⟩) (iblk0 V c 3 ⟨n, hn⟩) (iblk0 V c 4 ⟨n, hn⟩))
        (out_A7 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) ((hcond0_0 ⟨n, hn⟩).mpr h0) (iblk0 V c 0 ⟨n, hn⟩) (iblk0 V c 1 ⟨n, hn⟩) (iblk0 V c 2 ⟨n, hn⟩) (iblk0 V c 3 ⟨n, hn⟩) (iblk0 V c 4 ⟨n, hn⟩))))

/-- At a later point: the block's activations, and the block's column sums over what the point before left. -/
theorem step_later (c : Dev nD) (n : ℕ) (hn : n + 1 < cfg0.N) (h0 : ¬(n + 1) % 50 = 0) :
    outsAt0 V c (n + 1) hn
      = (k0_pay3 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
         k0_pay4 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.1,
         k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.2) :=
  (outsAt0_B V c ⟨n + 1, hn⟩ h0).trans
    (congrArg₂ Prod.mk
      (out_B5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
        (outsAt0 V c n (Nat.lt_of_succ_lt hn)).2.1 (outsAt0 V c n (Nat.lt_of_succ_lt hn)).2.2)
      (congrArg₂ Prod.mk
        (out_B6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
          (outsAt0 V c n (Nat.lt_of_succ_lt hn)).2.1 (outsAt0 V c n (Nat.lt_of_succ_lt hn)).2.2)
        (out_B7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
          (outsAt0 V c n (Nat.lt_of_succ_lt hn)).2.1 (outsAt0 V c n (Nat.lt_of_succ_lt hn)).2.2)))

/-- Block s's column sum of the activations at feature q (zero past the grid). -/
def blkSum (c : Dev nD) (s : ℕ) (q : Fin 128) : EReal :=
  if h : s < cfg0.N then ∑ r : Fin 2000, Hf V c (rowOf ⟨s, h⟩ r) q else 0
/-- Block s's column sum of the squared activations. -/
def blkSq (c : Dev nD) (s : ℕ) (q : Fin 128) : EReal :=
  if h : s < cfg0.N then ∑ r : Fin 2000, Hf V c (rowOf ⟨s, h⟩ r) q * Hf V c (rowOf ⟨s, h⟩ r) q else 0

/-- After point n the first staging buffer holds block n's activations and the two running rows the sums of the first
    n + 1 blocks' column sums, over the zero they started from: by induction on the point. -/
theorem outs_eq (c : Dev nD) : ∀ (n : ℕ) (hn : n < cfg0.N),
    (outsAt0 V c n hn).1 = k0_pay3 (iblk0 V c 0 ⟨n, hn⟩) (iblk0 V c 1 ⟨n, hn⟩) (iblk0 V c 2 ⟨n, hn⟩) (iblk0 V c 3 ⟨n, hn⟩) (iblk0 V c 4 ⟨n, hn⟩)
    ∧ (∀ q : Fin 128, (outsAt0 V c n hn).2.1 (ix2 (0 : Fin 1) q)
        = Ideal.ofBits .f32 0x00000000#32 + ∑ s ∈ Finset.range (n + 1), blkSum V c s q)
    ∧ (∀ q : Fin 128, (outsAt0 V c n hn).2.2 (ix2 (0 : Fin 1) q)
        = Ideal.ofBits .f32 0x00000000#32 + ∑ s ∈ Finset.range (n + 1), blkSq V c s q)
  | 0, hn => by
    have e := step_first V c 0 hn rfl
    refine ⟨congrArg Prod.fst e, fun q => ?_, fun q => ?_⟩
    · rw [e]
      refine (pay4_apply (iblk0 V c 0 ⟨0, hn⟩) (iblk0 V c 1 ⟨0, hn⟩) (iblk0 V c 2 ⟨0, hn⟩) (iblk0 V c 3 ⟨0, hn⟩) (iblk0 V c 4 ⟨0, hn⟩) (k0_pay1 (F := Ideal)) q).trans ?_
      rw [Finset.sum_range_one, blkSum, dif_pos hn]
      refine congrArg₂ (· + ·) rfl ?_
      exact Finset.sum_congr rfl fun r _ => hBlk_iblk V c ⟨0, hn⟩ r q
    · rw [e]
      refine (pay5_apply (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := Ideal)) q).trans ?_
      rw [Finset.sum_range_one, blkSq, dif_pos hn]
      refine congrArg₂ (· + ·) rfl ?_
      exact Finset.sum_congr rfl fun r _ => by rw [hBlk_iblk V c ⟨0, hn⟩ r q]
  | n + 1, hn => by
    have hN : cfg0.N = 50 := N50
    have hB : ¬(n + 1) % 50 = 0 := by omega
    obtain ⟨-, ih6, ih7⟩ := outs_eq c n (Nat.lt_of_succ_lt hn)
    have e := step_later V c n hn hB
    refine ⟨congrArg Prod.fst e, fun q => ?_, fun q => ?_⟩
    · rw [e]
      refine (pay4_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.1 q).trans ?_
      rw [ih6 q, Finset.sum_range_succ _ (n + 1), ← add_assoc]
      refine congrArg₂ (· + ·) rfl ?_
      rw [blkSum, dif_pos hn]
      exact Finset.sum_congr rfl fun r _ => hBlk_iblk V c ⟨n + 1, hn⟩ r q
    · rw [e]
      refine (pay5_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.2 q).trans ?_
      rw [ih7 q, Finset.sum_range_succ _ (n + 1), ← add_assoc]
      refine congrArg₂ (· + ·) rfl ?_
      rw [blkSq, dif_pos hn]
      exact Finset.sum_congr rfl fun r _ => by rw [hBlk_iblk V c ⟨n + 1, hn⟩ r q]

end Cert.KernelIdeal.KStats

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.LibBlockSum.lean ====
/-
  A sum over all rows of an array is the sum, block by block, of the sums over each block's rows (a general lemma:
  it imports Mathlib and the regrouping law only, and mentions no program).

  The rows 0 … T−1 are cut into B consecutive blocks of R rows, row r of block s being row s·R + r. In a commutative
  monoid the sum over all rows is the sum over the blocks of the sums within a block. The block sums are written as a
  function of a natural number that is zero past the last block, the form a running accumulator over a grid takes.
-/
import proofs.«104694_j46986942218275_2_alg».proof.Proof.LibSumRegroup
import Mathlib.Algebra.BigOperators.Fin

namespace SumLaw

open Finset

variable {M : Type*} [AddCommMonoid M]

/-- `B` blocks of `R` rows exhaust `T = B * R` rows. -/
theorem sum_blocks {B R T : ℕ} (hT : B * R = T) (f : Fin T → M) (row : (s : ℕ) → s < B → Fin R → Fin T)
    (hrow : ∀ s h r, (row s h r).val = s * R + r.val) :
    ∑ s ∈ range B, (if h : s < B then ∑ r : Fin R, f (row s h r) else 0) = ∑ p : Fin T, f p := by
  subst hT
  let g : ℕ → M := fun a => if h : a < B * R then f ⟨a, h⟩ else 0
  have hg : ∀ p : Fin (B * R), f p = g p.val := fun p => by simp only [g, dif_pos p.isLt]
  have e : ∑ p : Fin (B * R), f p = ∑ a ∈ range (B * R), g a := by
    rw [Finset.sum_range]; exact Finset.sum_congr rfl fun p _ => hg p
  rw [e, sum_range_mul g B R]
  refine Finset.sum_congr rfl fun s hs => ?_
  have h : s < B := Finset.mem_range.mp hs
  rw [dif_pos h, Finset.sum_range]
  refine Finset.sum_congr rfl fun r _ => ?_
  rw [hg, hrow]

end SumLaw
-- ==== Proof.KStatsArr.lean ====
/-
  The first pallas region's three output arrays after the run.

  The activations' array is written back block by block, each point writing rows 2000·t … 2000·t + 1999: every row
  lies in the block of point (row / 2000), so the array ends holding the activations everywhere. The two one-row
  running sums are written back once, after the last point, when they hold the sum of all fifty blocks' column sums:
  the column sums of the activations and of their squares over all 100000 nodes (the zero the sums start from adds
  nothing).
-/
import proofs.«104694_j46986942218275_2_alg».proof.Proof.KStats
import proofs.«104694_j46986942218275_2_alg».proof.Proof.LibBlockSum

set_option maxRecDepth 16384

noncomputable section

open scoped BigOperators

namespace Cert.KernelIdeal.KStats

open Cert.KernelIdeal Cert.KernelIdeal.Gen Cert.KernelIdeal.KPay Cert.KernelIdeal.KPieces
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The activations' array -/

/-- The activations as contents of the first output array. -/
def Hbuf (c : Dev nD) : Buf (Elt Ideal) ((c : Thread nD τ).loc main_v15_0) := fun i => Hf V c (i 0) (i 1)

/-- What point t writes back is block t of the activations. -/
theorem flushed5_eq (c : Dev nD) (t : Fin cfg0.N) :
    (dat0 V c).flushed 5 t = ((cfg0.win 5).blk t).view.read (Elt Ideal) (Hbuf V c) := by
  obtain ⟨n, hn⟩ := t
  show (cfg0.win 5).cut (grid0.coords ⟨n, hn⟩) ((dat0 V c).after 5 ⟨n, hn⟩) = _
  rw [after0_5, (outs_eq V c n hn).1]
  obtain ⟨-, -, -, -, -, -, -, -, -, -, e0, e1, -⟩ := idx_facts ⟨n, hn⟩
  funext j
  obtain ⟨r, q, rfl⟩ : ∃ (r : Fin 2000) (q : Fin 128), j = ix2 r q := ⟨j 0, j 1, eq_ix2 j⟩
  show k0_pay3 (iblk0 V c 0 ⟨n, hn⟩) (iblk0 V c 1 ⟨n, hn⟩) (iblk0 V c 2 ⟨n, hn⟩) (iblk0 V c 3 ⟨n, hn⟩) (iblk0 V c 4 ⟨n, hn⟩) (ix2 r q)
    = Hbuf V c (((cfg0.win 5).blk ⟨n, hn⟩).view.emb (ix2 r q))
  refine (pay3_apply (iblk0 V c 0 ⟨n, hn⟩) (iblk0 V c 1 ⟨n, hn⟩) (iblk0 V c 2 ⟨n, hn⟩) (iblk0 V c 3 ⟨n, hn⟩) (iblk0 V c 4 ⟨n, hn⟩) r q).trans ?_
  rw [hBlk_iblk]
  show Hf V c (rowOf ⟨n, hn⟩ r) q = Hf V c _ _
  refine congrArg₂ (Hf V c) (Fin.ext ?_) (Fin.ext ?_)
  · show 2000 * n + r.val = win0_5.index ⟨n, hn⟩ (0 : Fin 2) * 2000 + 1 * r.val
    rw [e0]; show 2000 * n + r.val = n * 2000 + 1 * r.val; omega
  · show q.val = win0_5.index ⟨n, hn⟩ (1 : Fin 2) * 128 + 1 * q.val
    rw [e1]; omega

/-- An index is in point t's block iff each coordinate is in the block's range. -/
theorem mem_blk5 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v15_0).slice (win0_5.rect t)).set ↔ _
  rw [View.set_slice_whole, Rect.mem_set_unit]
  exact Iff.rfl

/-- The first output array ends holding the activations. -/
theorem final5 (c : Dev nD) : (dat0 V c).arrAt 5 cfg0.N = Hbuf V c :=
  (dat0 V c).arrAt_eq_of_cover 5 (Hbuf V c) (fun t _ => flushed5_eq V c t) fun i => by
    have hi0 : (i 0).val < 100000 := idx2_lt0 i
    have hi1 : (i 1).val < 128 := idx2_lt1 i
    have hN := N50
    have ht : (i 0).val / 2000 < cfg0.N := by rw [hN]; omega
    refine ⟨⟨(i 0).val / 2000, ht⟩, flush0_5 _, ?_⟩
    rw [mem_blk5]
    obtain ⟨-, -, -, -, -, -, -, -, -, -, e0, e1, -⟩ := idx_facts ⟨(i 0).val / 2000, ht⟩
    intro a
    match a with
    | ⟨0, _⟩ =>
      show win0_5.index ⟨(i 0).val / 2000, ht⟩ (0 : Fin 2) * 2000 ≤ (i 0).val
        ∧ (i 0).val < win0_5.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win0_5.index ⟨(i 0).val / 2000, ht⟩ (1 : Fin 2) * 128 ≤ (i 1).val
        ∧ (i 1).val < win0_5.index ⟨(i 0).val / 2000, ht⟩ (1 : Fin 2) * 128 + 128
      rw [e1]; omega

/-! ## The two one-row sums -/

/-- The running sums after the last point, as contents of the one-row output arrays. -/
def Srow (c : Dev nD) : S1x128.Idx → EReal :=
  fun i => Ideal.ofBits .f32 0x00000000#32 + ∑ s ∈ Finset.range (49 + 1), blkSum V c s (i 1)
def Qrow (c : Dev nD) : S1x128.Idx → EReal :=
  fun i => Ideal.ofBits .f32 0x00000000#32 + ∑ s ∈ Finset.range (49 + 1), blkSq V c s (i 1)
def Sbuf (c : Dev nD) : Buf (Elt Ideal) ((c : Thread nD τ).loc main_v15_1) := Srow V c
def Qbuf (c : Dev nD) : Buf (Elt Ideal) ((c : Thread nD τ).loc main_v15_2) := Qrow V c

theorem flushed6_eq (c : Dev nD) (t : Fin cfg0.N) (hf : (cfg0.win 6).flush t = true) :
    (dat0 V c).flushed 6 t = ((cfg0.win 6).blk t).view.read (Elt Ideal) (Sbuf V c) := by
  have hN := N50
  have h49 : t.val = 49 := by have := (flush0_6 t).mp hf; have := t.isLt; omega
  obtain ⟨n, hn⟩ := t
  have h49' : n = 49 := h49
  show (cfg0.win 6).cut (grid0.coords ⟨n, hn⟩) ((dat0 V c).after 6 ⟨n, hn⟩) = _
  rw [after0_6]
  obtain ⟨-, -, -, -, -, -, -, -, -, -, -, -, e0, e1, -⟩ := idx_facts ⟨n, hn⟩
  funext j
  obtain ⟨u, q, rfl⟩ : ∃ (u : Fin 1) (q : Fin 128), j = ix2 u q := ⟨j 0, j 1, eq_ix2 j⟩
  obtain rfl : u = 0 := Subsingleton.elim _ _
  show (outsAt0 V c n hn).2.1 (ix2 (0 : Fin 1) q) = Srow V c (((cfg0.win 6).blk ⟨n, hn⟩).view.emb (ix2 (0 : Fin 1) q))
  rw [(outs_eq V c n hn).2.1 q]
  have hq : (((cfg0.win 6).blk ⟨n, hn⟩).view.emb (ix2 (0 : Fin 1) q)) 1 = q :=
    Fin.ext (by show win0_6.index ⟨n, hn⟩ (1 : Fin 2) * 128 + 1 * q.val = q.val; rw [e1]; omega)
  show _ = Ideal.ofBits .f32 0x00000000#32
    + ∑ s ∈ Finset.range (49 + 1), blkSum V c s ((((cfg0.win 6).blk ⟨n, hn⟩).view.emb (ix2 (0 : Fin 1) q)) 1)
  rw [hq, h49']

theorem flushed7_eq (c : Dev nD) (t : Fin cfg0.N) (hf : (cfg0.win 7).flush t = true) :
    (dat0 V c).flushed 7 t = ((cfg0.win 7).blk t).view.read (Elt Ideal) (Qbuf V c) := by
  have hN := N50
  have h49 : t.val = 49 := by have := (flush0_7 t).mp hf; have := t.isLt; omega
  obtain ⟨n, hn⟩ := t
  have h49' : n = 49 := h49
  show (cfg0.win 7).cut (grid0.coords ⟨n, hn⟩) ((dat0 V c).after 7 ⟨n, hn⟩) = _
  rw [after0_7]
  obtain ⟨-, -, -, -, -, -, -, -, -, -, -, -, -, -, e0, e1⟩ := idx_facts ⟨n, hn⟩
  funext j
  obtain ⟨u, q, rfl⟩ : ∃ (u : Fin 1) (q : Fin 128), j = ix2 u q := ⟨j 0, j 1, eq_ix2 j⟩
  obtain rfl : u = 0 := Subsingleton.elim _ _
  show (outsAt0 V c n hn).2.2 (ix2 (0 : Fin 1) q) = Qrow V c (((cfg0.win 7).blk ⟨n, hn⟩).view.emb (ix2 (0 : Fin 1) q))
  rw [(outs_eq V c n hn).2.2 q]
  have hq : (((cfg0.win 7).blk ⟨n, hn⟩).view.emb (ix2 (0 : Fin 1) q)) 1 = q :=
    Fin.ext (by show win0_7.index ⟨n, hn⟩ (1 : Fin 2) * 128 + 1 * q.val = q.val; rw [e1]; omega)
  show _ = Ideal.ofBits .f32 0x00000000#32
    + ∑ s ∈ Finset.range (49 + 1), blkSq V c s ((((cfg0.win 7).blk ⟨n, hn⟩).view.emb (ix2 (0 : Fin 1) q)) 1)
  rw [hq, h49']

theorem mem_blk6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v15_1).slice (win0_6.rect t)).set ↔ _
  rw [View.set_slice_whole, Rect.mem_set_unit]
  exact Iff.rfl

theorem mem_blk7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v15_2).slice (win0_7.rect t)).set ↔ _
  rw [View.set_slice_whole, Rect.mem_set_unit]
  exact Iff.rfl

theorem last_lt : 49 < cfg0.N := by rw [N50]; decide

theorem final6 (c : Dev nD) : (dat0 V c).arrAt 6 cfg0.N = Sbuf V c :=
  (dat0 V c).arrAt_eq_of_cover 6 (Sbuf V c) (flushed6_eq V c) fun i => by
    have hi0 : (i 0).val < 1 := idx2_lt0 i
    have hi1 : (i 1).val < 128 := idx2_lt1 i
    refine ⟨⟨49, last_lt⟩, (flush0_6 _).mpr rfl, ?_⟩
    rw [mem_blk6]
    obtain ⟨-, -, -, -, -, -, -, -, -, -, -, -, e0, e1, -⟩ := idx_facts ⟨49, last_lt⟩
    intro a
    match a with
    | ⟨0, _⟩ =>
      show win0_6.index ⟨49, last_lt⟩ (0 : Fin 2) * 1 ≤ (i 0).val ∧ (i 0).val < win0_6.index ⟨49, last_lt⟩ (0 : Fin 2) * 1 + 1
      rw [e0]; omega
    | ⟨1, _⟩ =>
      show win0_6.index ⟨49, last_lt⟩ (1 : Fin 2) * 128 ≤ (i 1).val ∧ (i 1).val < win0_6.index ⟨49, last_lt⟩ (1 : Fin 2) * 128 + 128
      rw [e1]; omega

theorem final7 (c : Dev nD) : (dat0 V c).arrAt 7 cfg0.N = Qbuf V c :=
  (dat0 V c).arrAt_eq_of_cover 7 (Qbuf V c) (flushed7_eq V c) fun i => by
    have hi0 : (i 0).val < 1 := idx2_lt0 i
    have hi1 : (i 1).val < 128 := idx2_lt1 i
    refine ⟨⟨49, last_lt⟩, (flush0_7 _).mpr rfl, ?_⟩
    rw [mem_blk7]
    obtain ⟨-, -, -, -, -, -, -, -, -, -, -, -, -, -, e0, e1⟩ := idx_facts ⟨49, last_lt⟩
    intro a
    match a with
    | ⟨0, _⟩ =>
      show win0_7.index ⟨49, last_lt⟩ (0 : Fin 2) * 1 ≤ (i 0).val ∧ (i 0).val < win0_7.index ⟨49, last_lt⟩ (0 : Fin 2) * 1 + 1
      rw [e0]; omega
    | ⟨1, _⟩ =>
      show win0_7.index ⟨49, last_lt⟩ (1 : Fin 2) * 128 ≤ (i 1).val ∧ (i 1).val < win0_7.index ⟨49, last_lt⟩ (1 : Fin 2) * 128 + 128
      rw [e1]; omega

/-! ## Fifty blocks of 2000 rows are all the rows -/

theorem rowOf_val (s : ℕ) (h : s < cfg0.N) (r : Fin 2000) : (rowOf ⟨s, h⟩ r).val = s * 2000 + r.val := by
  show 2000 * s + r.val = s * 2000 + r.val; omega

/-- The sum of the fifty blocks' column sums is the column sum over all nodes. -/
theorem Srow_apply (c : Dev nD) (i : S1x128.Idx) : Srow V c i = Cert.GraphBn.colSum (Hf V c) (i 1) := by
  unfold Srow Cert.GraphBn.colSum
  rw [Ideal.ofBits_zero_f32, zero_add]
  have h := SumLaw.sum_blocks (M := EReal) (B := cfg0.N) (R := 2000) (T := 100000) (by rw [N50]) (fun p => Hf V c p (i 1))
    (fun s h r => rowOf ⟨s, h⟩ r) (fun s h r => rowOf_val s h r)
  rw [← h]
  refine Finset.sum_congr (by rw [N50]) fun s _ => rfl

theorem Qrow_apply (c : Dev nD) (i : S1x128.Idx) : Qrow V c i = Cert.GraphBn.colSumSq (Hf V c) (i 1) := by
  unfold Qrow Cert.GraphBn.colSumSq
  rw [Ideal.ofBits_zero_f32, zero_add]
  have h := SumLaw.sum_blocks (M := EReal) (B := cfg0.N) (R := 2000) (T := 100000) (by rw [N50])
    (fun p => Hf V c p (i 1) * Hf V c p (i 1))
    (fun s h r => rowOf ⟨s, h⟩ r) (fun s h r => rowOf_val s h r)
  rw [← h]
  refine Finset.sum_congr (by rw [N50]) fun s _ => rfl

end Cert.KernelIdeal.KStats

end
-- ==== Proof.KNorm.lean ====
/-
  The pointwise normalise-and-clamp pass as one whole-array function.

  The second pass of the one-pass batch normalisation walks the 100000 x 128 activations in 50 slabs of 2000 rows.
  For every slab it multiplies each entry by the scale of its column, adds the shift of its column (the scale and the
  shift are one row of 128 entries each, the same row for every slab) and clamps the result at zero from below. An
  entry of the result therefore depends only on the entry of the activations at the same place and on the scale and the
  shift at its column:

      result (n, q) = max (h (n, q) * scale (0, q) + shift (0, q)) 0.

  The slabs are disjoint and together hold every row (row n lies in slab n / 2000), so after the last slab is written
  back the whole result array is that function of the three arrays as the pass found them.
-/
import proofs.«104694_j46986942218275_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KNorm

open Cert.KernelIdeal Cert.KernelIdeal.Gen Idealize.ShloMosaic Idealize.ShloMosaic.TcCoe Idealize.SL.Sem
open Idealize.ShloMosaic.Pipeline (Dat)
open Idealize.ShloMosaic.ValueIdx

-- the contents of the buffers when the pass is entered
variable (V : (c : Dev nD) → (b : Ref sig .tc) → Buf (Elt Ideal) ((c : Thread nD τ).loc b))

/-- The two zero offsets of a whole slab, spelt as a constant function. -/
theorem zero_offsets : (![0, 0] : Fin 2 → Nat) = fun _ => 0 := funext fun a => by fin_cases a <;> rfl

/-! ## One slab: the stored value at an entry -/

/-- The value the pass stores for a slab, at row r and column q of the slab: the slab's entry times the scale at q,
    plus the shift at q, clamped at zero. The two casts of a shape to itself change nothing, and a one-row array
    spread over the 2000 rows reads its one row at the column. -/
theorem slab_value (x0 : Vec Ideal S2000x128 .f32) (x1 x2 : Vec Ideal S1x128 .f32) (r : Fin 2000) (q : Fin 128) :
    k1_pay1 (F := Ideal) x0 x1 x2 (ix2 r q)
      = max (x0 (ix2 r q) * x1 (ix2 (0 : Fin 1) q) + x2 (ix2 (0 : Fin 1) q)) (Ideal.ofBits .f32 0x00000000#32) := by
  unfold k1_pay1
  show max (shapeCast S2000x128 x0 shapeCasts_S2000x128_S2000x128 (ix2 r q)
        * broadcastTo S2000x128 (shapeCast S1x128 x1 shapeCasts_S1x128_S1x128) broadcasts_S1x128_S2000x128 (ix2 r q)
        + broadcastTo S2000x128 (shapeCast S1x128 x2 shapeCasts_S1x128_S1x128) broadcasts_S1x128_S2000x128 (ix2 r q))
      (Ideal.ofBits .f32 0x00000000#32) = _
  rw [shapeCast_self, shapeCast_self, shapeCast_self, broadcastTo_1b_ab_apply, broadcastTo_1b_ab_apply]

/-! ## The whole array -/

/-- Scaling, shifting and clamping entry by entry: from activations h and one row each of scales s and shifts b, the
    array whose entry at node n and feature q is max (h (n, q) * s (0, q) + b (0, q)) 0. -/
def normEntry (h : S100000x128.Idx → EReal) (s b : S1x128.Idx → EReal) : S100000x128.Idx → EReal :=
  fun i => max (h i * s (ix2 (0 : Fin 1) (i 1 : Fin 128)) + b (ix2 (0 : Fin 1) (i 1 : Fin 128)))
    (Ideal.ofBits .f32 0x00000000#32)

/-- The same at a node and a feature given separately. -/
theorem normEntry_ix2 (h : S100000x128.Idx → EReal) (s b : S1x128.Idx → EReal) (p : Fin 100000) (q : Fin 128) :
    normEntry h s b (ix2 p q)
      = max (h (ix2 p q) * s (ix2 (0 : Fin 1) q) + b (ix2 (0 : Fin 1) q)) (Ideal.ofBits .f32 0x00000000#32) := rfl

/-- The result array as one function of the three arrays the pass reads, as the pass finds them. -/
def G1 (c : Dev nD) : Buf (Elt Ideal) ((c : Thread nD τ).loc main_v34) :=
  normEntry (V c main_v15_0) (V c main_v32) (V c main_v33)

/-- Where the slabs lie: at point t the activations' and the result's slab is slab t of the rows (and the only slab of
    the columns), the scale's and the shift's is their one whole row. Decided over the 50 points. -/
theorem slab_places : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## A slab read at an entry is the array read at the entry's place -/

/-- The activations' slab at point t, at row r and column q of the slab, is the array's entry at row 2000 t + r and
    column q: an entry of a slab sits at the slab's index times the slab's extent plus its place inside the slab. -/
theorem slab0_read (c : Dev nD) (t : Fin cfg1.N) (r : Fin 2000) (q : Fin 128) (i : S100000x128.Idx)
    (h0 : (i 0).val = t.val * 2000 + r.val) (h1 : (i 1).val = q.val) :
    (iblk1 V c 0 t : Vec Ideal S2000x128 .f32) (ix2 r q) = (V c main_v15_0 : S100000x128.Idx → EReal) i := by
  obtain ⟨e0, e1, -⟩ := slab_places t
  show V c main_v15_0 (((cfg1.win 0).blk t).view.emb (ix2 r q)) = V c main_v15_0 i
  refine congrArg _ ?_
  funext a; apply Fin.ext
  match a with
  | ⟨0, _⟩ => show win1_0.index t (0 : Fin 2) * 2000 + 1 * r.val = (i 0).val; omega
  | ⟨1, _⟩ => show win1_0.index t (1 : Fin 2) * 128 + 1 * q.val = (i 1).val; omega

/-- The scale's slab at any point is the whole one-row array. -/
theorem slab1_read (c : Dev nD) (t : Fin cfg1.N) (q : Fin 128) :
    (iblk1 V c 1 t : Vec Ideal S1x128 .f32) (ix2 (0 : Fin 1) q) = (V c main_v32 : S1x128.Idx → EReal) (ix2 (0 : Fin 1) q) := by
  obtain ⟨-, -, e2, e3, -⟩ := slab_places t
  show V c main_v32 (((cfg1.win 1).blk t).view.emb (ix2 (0 : Fin 1) q)) = V c main_v32 (ix2 (0 : Fin 1) q)
  refine congrArg _ ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- The shift's slab at any point is the whole one-row array. -/
theorem slab2_read (c : Dev nD) (t : Fin cfg1.N) (q : Fin 128) :
    (iblk1 V c 2 t : Vec Ideal S1x128 .f32) (ix2 (0 : Fin 1) q) = (V c main_v33 : S1x128.Idx → EReal) (ix2 (0 : Fin 1) q) := by
  obtain ⟨-, -, -, -, e4, e5, -⟩ := slab_places t
  show V c main_v33 (((cfg1.win 2).blk t).view.emb (ix2 (0 : Fin 1) q)) = V c main_v33 (ix2 (0 : Fin 1) q)
  refine congrArg _ ?_
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- The entry-by-entry function at an entry whose column is q reads the scale and the shift at q. -/
theorem normEntry_col (h : S100000x128.Idx → EReal) (s b : S1x128.Idx → EReal) (q : Fin 128) (i : S100000x128.Idx)
    (h1 : (i 1).val = q.val) :
    normEntry h s b i = max (h i * s (ix2 (0 : Fin 1) q) + b (ix2 (0 : Fin 1) q)) (Ideal.ofBits .f32 0x00000000#32) := by
  have hq : (i 1 : Fin 128) = q := Fin.ext h1
  unfold normEntry
  rw [hq]

/-- What the pass stores at row r, column q of the slab at point t is the whole-array function at the place of that
    entry in the array. -/
theorem stored_entry (c : Dev nD) (t : Fin cfg1.N) (r : Fin 2000) (q : Fin 128) (i : S100000x128.Idx)
    (h0 : (i 0).val = t.val * 2000 + r.val) (h1 : (i 1).val = q.val) :
    k1_pay1 (F := Ideal) (iblk1 V c 0 t) (iblk1 V c 1 t) (iblk1 V c 2 t) (ix2 r q) = G1 V c i := by
  refine (slab_value (iblk1 V c 0 t) (iblk1 V c 1 t) (iblk1 V c 2 t) r q).trans ?_
  rw [slab0_read V c t r q i h0 h1, slab1_read V c t q, slab2_read V c t q]
  exact (normEntry_col _ _ _ q i h1).symm

/-! ## What one point writes back, and the array after the last point -/

/-- What point t writes back is slab t of the whole-array function. -/
theorem written_back (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero zero_offsets]
  simp only [View.ld_unit_zero (S := S2000x128) zero_offsets, View.ld_unit_zero (S := S1x128) zero_offsets]
  obtain ⟨-, -, -, -, -, -, e6, e7⟩ := slab_places t
  funext j
  obtain ⟨r, q, rfl⟩ : ∃ (r : Fin 2000) (q : Fin 128), j = ix2 r q := ⟨j 0, j 1, eq_ix2 j⟩
  show k1_pay1 (F := Ideal) (iblk1 V c 0 t) (iblk1 V c 1 t) (iblk1 V c 2 t) (ix2 r q)
      = G1 V c (((cfg1.win 3).blk t).view.emb (ix2 r q))
  refine stored_entry V c t r q _ ?_ ?_
  · show win1_3.index t (0 : Fin 2) * 2000 + 1 * r.val = t.val * 2000 + r.val; omega
  · show win1_3.index t (1 : Fin 2) * 128 + 1 * q.val = q.val; omega

/-- An entry of the array lies in point t's slab iff each of its coordinates lies in the slab's range on that axis. -/
theorem mem_slab (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v34).slice (win1_3.rect t)).set ↔ _
  rw [View.set_slice_whole, Rect.mem_set_unit]
  exact Iff.rfl

/-- Every entry lies in some point's slab: row n lies in slab n / 2000. -/
theorem covered (i : S100000x128.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 128 := (i 1).isLt
  have ht : (i 0).val / 2000 < cfg1.N := by rw [hN]; omega
  obtain ⟨-, -, -, -, -, -, e6, e7⟩ := slab_places ⟨(i 0).val / 2000, ht⟩
  refine ⟨⟨(i 0).val / 2000, ht⟩, flush1_3 _, ?_⟩
  rw [mem_slab]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e7]; omega

/-- After the last point the result array is the whole-array function of the three arrays as the pass found them. -/
theorem final1 (c : Dev nD) : (dat1 (F := Ideal) V c).arrAt 3 cfg1.N = G1 V c :=
  (dat1 (F := Ideal) V c).arrAt_eq_of_cover 3 (G1 V c) (fun t _ => written_back V c t) covered

end Cert.KernelIdeal.KNorm

end
-- ==== Proof.KHost.lean ====
/-
  The host operations around the two regions, read at the buffers the regions use.

  Before the first region the host forms the neighbour aggregate (a row gather of x by the source indices, scatter-added
  by the destination indices into zeros) and views the bias vector as one row; the arguments themselves are not
  written. Between the regions it turns the two one-row sums into the mean μ = Σh / N and the clamped one-pass variance
  max(Σh² / N − μ², 0), and from them the scale row γ · rsqrt(var + ε) and the shift row β − μ · scale; it does not
  write the activations' array.
-/
import proofs.«104694_j46986942218275_2_alg».proof.Proof.Gen.KernelIdeal.Frame
import proofs.«104694_j46986942218275_2_alg».proof.Proof.Gen.ReferenceIdeal.Read
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.KHost

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A buffer no operation of a stretch writes holds after the stretch what it held before. -/
local macro "not_written " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## What the first region finds -/

theorem V1_arg0 (c : Dev nD) : V1 m ρ c main_arg0 = m ((c : Thread nD τ).loc main_arg0) := by
  show StableHlo.after hostOps0 (W0 m ρ c) (Proc.devRef .tc main_arg0) = W0 m ρ c (Proc.devRef .tc main_arg0)
  not_written hostOps0
theorem V1_arg2 (c : Dev nD) : V1 m ρ c main_arg2 = m ((c : Thread nD τ).loc main_arg2) := by
  show StableHlo.after hostOps0 (W0 m ρ c) (Proc.devRef .tc main_arg2) = W0 m ρ c (Proc.devRef .tc main_arg2)
  not_written hostOps0
theorem V1_arg3 (c : Dev nD) : V1 m ρ c main_arg3 = m ((c : Thread nD τ).loc main_arg3) := by
  show StableHlo.after hostOps0 (W0 m ρ c) (Proc.devRef .tc main_arg3) = W0 m ρ c (Proc.devRef .tc main_arg3)
  not_written hostOps0
theorem V1_arg5 (c : Dev nD) : V1 m ρ c main_arg5 = m ((c : Thread nD τ).loc main_arg5) := by
  show StableHlo.after hostOps0 (W0 m ρ c) (Proc.devRef .tc main_arg5) = W0 m ρ c (Proc.devRef .tc main_arg5)
  not_written hostOps0
theorem V1_arg6 (c : Dev nD) : V1 m ρ c main_arg6 = m ((c : Thread nD τ).loc main_arg6) := by
  show StableHlo.after hostOps0 (W0 m ρ c) (Proc.devRef .tc main_arg6) = W0 m ρ c (Proc.devRef .tc main_arg6)
  not_written hostOps0

/-- The bias, viewed as one row. -/
theorem V1_v14 (c : Dev nD) :
    V1 m ρ c main_v14 = shapeCast S1x128 (m ((c : Thread nD τ).loc main_arg4)) shapeCasts_S128_S1x128 := by
  show StableHlo.after hostOps0 (W0 m ρ c) (Proc.devRef .tc main_v14) = _
  after_results
  rfl

/-- The neighbour aggregate: the same gather and scatter-add of the same index arrays as the reference's. -/
theorem V1_v13 (c : Dev nD) :
    V1 m ρ c main_v13 = Cert.ReferenceIdeal.Read.val_main_v13 (F := Ideal) (m ((c : Thread nD τ).loc main_arg0))
      (m ((c : Thread nD τ).loc main_arg1)) := by
  show StableHlo.after hostOps0 (W0 m ρ c) (Proc.devRef .tc main_v13) = _
  after_results
  rfl

/-! ## What the second region finds -/

/-- The host operations between the regions do not write the activations' array. -/
theorem V3_v15_0 (c : Dev nD) : V3 m ρ c main_v15_0 = (dat0 (V1 m ρ) c).arrAt 5 cfg0.N := by
  refine Eq.trans (b := W2 m ρ c (Proc.devRef .tc main_v15_0)) ?_ (W2_arr m ρ c 5)
  show StableHlo.after hostOps1 (W2 m ρ c) (Proc.devRef .tc main_v15_0) = W2 m ρ c (Proc.devRef .tc main_v15_0)
  not_written hostOps1

/-- The column mean as the host computes it from the one-row sum. -/
def meanArr (s : FVec Ideal S1x128 .f32) : FVec Ideal S128 .f32 :=
  Host.divf (F := Ideal) (shapeCast S128 s shapeCasts_S1x128_S128)
    (broadcastInDim S128 ![] bcast_S_S128 (constant (F := Ideal) S_ .f32 0x47C35000#32))

/-- The scale γ · rsqrt(max(Σh²/N − μ², 0) + ε) as the host computes it. -/
def scaleArr (s q : FVec Ideal S1x128 .f32) (g : FVec Ideal S128 .f32) : FVec Ideal S128 .f32 :=
  mulf g (Host.rsqrt (F := Ideal) (addf (maximumf (subf
    (Host.divf (F := Ideal) (shapeCast S128 q shapeCasts_S1x128_S128)
      (broadcastInDim S128 ![] bcast_S_S128 (constant (F := Ideal) S_ .f32 0x47C35000#32)))
    (mulf (meanArr s) (meanArr s)))
    (broadcastInDim S128 ![] bcast_S_S128 (constant (F := Ideal) S_ .f32 0x00000000#32)))
    (broadcastInDim S128 ![] bcast_S_S128 (constant (F := Ideal) S_ .f32 0x3727C5AC#32))))

/-- The shift β − μ · scale as the host computes it. -/
def shiftArr (s q : FVec Ideal S1x128 .f32) (g b : FVec Ideal S128 .f32) : FVec Ideal S128 .f32 :=
  subf b (mulf (meanArr s) (scaleArr s q g))

theorem V3_v32 (c : Dev nD) :
    V3 m ρ c main_v32 = shapeCast S1x128 (scaleArr (W2 m ρ c (Proc.devRef .tc main_v15_1)) (W2 m ρ c (Proc.devRef .tc main_v15_2))
      (W2 m ρ c (Proc.devRef .tc main_arg5))) shapeCasts_S128_S1x128 := by
  show StableHlo.after hostOps1 (W2 m ρ c) (Proc.devRef .tc main_v32) = _
  after_results
  rfl

set_option maxHeartbeats 1000000 in
theorem V3_v33 (c : Dev nD) :
    V3 m ρ c main_v33 = shapeCast S1x128 (shiftArr (W2 m ρ c (Proc.devRef .tc main_v15_1)) (W2 m ρ c (Proc.devRef .tc main_v15_2))
      (W2 m ρ c (Proc.devRef .tc main_arg5)) (W2 m ρ c (Proc.devRef .tc main_arg6))) shapeCasts_S128_S1x128 := by
  show StableHlo.after hostOps1 (W2 m ρ c) (Proc.devRef .tc main_v33) = _
  after_results_simp
  rfl

/-- The first region writes neither γ nor β. -/
theorem W2_arg5 (c : Dev nD) : W2 m ρ c (Proc.devRef .tc main_arg5) = m ((c : Thread nD τ).loc main_arg5) :=
  (W2_of_ne m ρ c main_arg5 (by decide)).trans (V1_arg5 m ρ c)
theorem W2_arg6 (c : Dev nD) : W2 m ρ c (Proc.devRef .tc main_arg6) = m ((c : Thread nD τ).loc main_arg6) :=
  (W2_of_ne m ρ c main_arg6 (by decide)).trans (V1_arg6 m ρ c)
theorem W2_v15_1 (c : Dev nD) : W2 m ρ c (Proc.devRef .tc main_v15_1) = (dat0 (V1 m ρ) c).arrAt 6 cfg0.N := W2_arr m ρ c 6
theorem W2_v15_2 (c : Dev nD) : W2 m ρ c (Proc.devRef .tc main_v15_2) = (dat0 (V1 m ρ) c).arrAt 7 cfg0.N := W2_arr m ρ c 7

/-! ## The scale and shift rows at an entry -/

theorem word_bcast (w : BitVec 32) (j : Fin 128) :
    broadcastInDim S128 ![] bcast_S_S128 (constant (F := Ideal) S_ .f32 w) (ix1 j) = Ideal.ofBits .f32 w :=
  broadcastInDim_apply _ bcast_S_S128 _ (ix1 j) ix0 (fun a => a.elim0)

theorem meanArr_apply (s : FVec Ideal S1x128 .f32) (j : Fin 128) :
    meanArr s (ix1 j) = Ideal.div (s (ix2 (0 : Fin 1) j)) (Ideal.ofBits .f32 0x47C35000#32) := by
  show Ideal.div (shapeCast S128 s shapeCasts_S1x128_S128 (ix1 j)) (broadcastInDim S128 ![] bcast_S_S128 (constant (F := Ideal) S_ .f32 0x47C35000#32) (ix1 j)) = _
  rw [word_bcast, shapeCast_1a_a_apply]

theorem scaleArr_apply (s q : FVec Ideal S1x128 .f32) (g : FVec Ideal S128 .f32) (j : Fin 128) :
    scaleArr s q g (ix1 j) = g (ix1 j) * Ideal.rsqrt (max (Ideal.div (q (ix2 (0 : Fin 1) j)) (Ideal.ofBits .f32 0x47C35000#32)
      - meanArr s (ix1 j) * meanArr s (ix1 j)) (Ideal.ofBits .f32 0x00000000#32) + Ideal.ofBits .f32 0x3727C5AC#32) := by
  show g (ix1 j) * Ideal.rsqrt (max (Ideal.div (shapeCast S128 q shapeCasts_S1x128_S128 (ix1 j))
      (broadcastInDim S128 ![] bcast_S_S128 (constant (F := Ideal) S_ .f32 0x47C35000#32) (ix1 j))
      - meanArr s (ix1 j) * meanArr s (ix1 j))
      (broadcastInDim S128 ![] bcast_S_S128 (constant (F := Ideal) S_ .f32 0x00000000#32) (ix1 j))
      + broadcastInDim S128 ![] bcast_S_S128 (constant (F := Ideal) S_ .f32 0x3727C5AC#32) (ix1 j)) = _
  rw [word_bcast, word_bcast, word_bcast, shapeCast_1a_a_apply]

theorem shiftArr_apply (s q : FVec Ideal S1x128 .f32) (g b : FVec Ideal S128 .f32) (j : Fin 128) :
    shiftArr s q g b (ix1 j) = b (ix1 j) - meanArr s (ix1 j) * scaleArr s q g (ix1 j) := rfl

end Cert.KernelIdeal.KHost

end
-- ==== Proof.KValue.lean ====
/-
  The idealized kernel's result, as one function of its arguments.

  The second region leaves max(h · scale + shift, 0) in the result array, h being what the first region left in the
  activations' array and scale, shift the two rows the host formed from the first region's column sums. The first region's
  inputs are the arguments, the bias viewed as a row, and the neighbour aggregate. Put together, every entry of the result
  is the one-pass closed form of the normalised, scaled, shifted and clamped activations of the arguments.
-/
import proofs.«104694_j46986942218275_2_alg».proof.Proof.KRun
import proofs.«104694_j46986942218275_2_alg».proof.Proof.KStatsArr
import proofs.«104694_j46986942218275_2_alg».proof.Proof.KNorm
import proofs.«104694_j46986942218275_2_alg».proof.Proof.KHost
import proofs.«104694_j46986942218275_2_alg».proof.Proof.Spec

set_option maxRecDepth 16384

noncomputable section

namespace Cert.KernelIdeal.KOut

open Cert.KernelIdeal Cert.KernelIdeal.Gen Cert.KernelIdeal.KHost
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- γ and β as functions of the feature. -/
def gam (c : Dev nD) : Fin 128 → EReal := fun q => (m ((c : Thread nD τ).loc main_arg5) : S128.Idx → EReal) (ix1 q)
def bet (c : Dev nD) : Fin 128 → EReal := fun q => (m ((c : Thread nD τ).loc main_arg6) : S128.Idx → EReal) (ix1 q)

/-- The activations of the arguments. -/
def hK (c : Dev nD) : Fin 100000 → Fin 128 → EReal :=
  Cert.GraphBn.hAt (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg2)) (m ((c : Thread nD τ).loc main_arg3)) (m ((c : Thread nD τ).loc main_arg4))

/-- What the first region computes from the arrays it finds is the activations of the arguments. -/
theorem Hf_eq (c : Dev nD) : KStats.Hf (V1 m ρ) c = hK m c := by
  funext p q
  unfold KStats.Hf hK
  show Cert.GraphBn.hAt (V1 m ρ c main_arg0) (V1 m ρ c main_v13) (V1 m ρ c main_arg2) (V1 m ρ c main_arg3)
    (fun j => (V1 m ρ c main_v14 : S1x128.Idx → EReal) (ix2 (0 : Fin 1) (j 0))) p q = _
  rw [V1_arg0, V1_v13, V1_arg2, V1_arg3, V1_v14]
  refine congrArg (fun b => Cert.GraphBn.hAt _ _ _ _ b p q) ?_
  funext j
  refine (shapeCast_a_1a_apply _ shapeCasts_S128_S1x128 (0 : Fin 1) (j 0)).trans ?_
  exact congrArg _ (eq_ix1 j).symm

theorem act_entry (c : Dev nD) (p : Fin 100000) (q : Fin 128) :
    (V3 m ρ c main_v15_0 : S100000x128.Idx → EReal) (ix2 p q) = hK m c p q := by
  rw [V3_v15_0, KStats.final5]
  show KStats.Hf (V1 m ρ) c p q = _
  rw [Hf_eq]

theorem sum_entry (c : Dev nD) (q : Fin 128) :
    (W2 m ρ c (Proc.devRef .tc main_v15_1) : S1x128.Idx → EReal) (ix2 (0 : Fin 1) q) = Cert.GraphBn.colSum (hK m c) q := by
  rw [W2_v15_1, KStats.final6]
  show KStats.Srow (V1 m ρ) c (ix2 (0 : Fin 1) q) = _
  rw [KStats.Srow_apply, Hf_eq]

theorem sq_entry (c : Dev nD) (q : Fin 128) :
    (W2 m ρ c (Proc.devRef .tc main_v15_2) : S1x128.Idx → EReal) (ix2 (0 : Fin 1) q) = Cert.GraphBn.colSumSq (hK m c) q := by
  rw [W2_v15_2, KStats.final7]
  show KStats.Qrow (V1 m ρ) c (ix2 (0 : Fin 1) q) = _
  rw [KStats.Qrow_apply, Hf_eq]

theorem mean_entry (c : Dev nD) (q : Fin 128) :
    meanArr (W2 m ρ c (Proc.devRef .tc main_v15_1)) (ix1 q) = Cert.GraphBn.mean (hK m c) q := by
  rw [meanArr_apply, sum_entry]
  rfl

theorem scale_entry (c : Dev nD) (q : Fin 128) :
    (V3 m ρ c main_v32 : S1x128.Idx → EReal) (ix2 (0 : Fin 1) q) = Cert.GraphBn.scaleK (hK m c) (gam m c) q := by
  rw [V3_v32]
  refine (shapeCast_a_1a_apply _ shapeCasts_S128_S1x128 (0 : Fin 1) q).trans ?_
  rw [scaleArr_apply, mean_entry, sq_entry, W2_arg5]
  rfl

theorem shift_entry (c : Dev nD) (q : Fin 128) :
    (V3 m ρ c main_v33 : S1x128.Idx → EReal) (ix2 (0 : Fin 1) q)
      = Cert.GraphBn.shiftK (hK m c) (gam m c) (bet m c) q := by
  rw [V3_v33]
  refine (shapeCast_a_1a_apply _ shapeCasts_S128_S1x128 (0 : Fin 1) q).trans ?_
  rw [shiftArr_apply, mean_entry, scaleArr_apply, mean_entry, sq_entry, W2_arg5, W2_arg6]
  rfl

/-- The result array: the one-pass closed form at every entry. -/
def result (c : Dev nD) : Buf (Elt Ideal) ((c.tc : Thread nD τ).loc main_v34) :=
  fun i => Cert.GraphBn.outK (hK m c) (gam m c) (bet m c) (i 0) (i 1)

theorem W4_v34 (c : Dev nD) : W4 m ρ c (Proc.devRef .tc main_v34) = result m c := by
  refine (W4_arr m ρ c 3).trans ?_
  rw [KNorm.final1]
  unfold KNorm.G1
  funext i
  obtain ⟨p, q, rfl⟩ : ∃ (p : Fin 100000) (q : Fin 128), i = ix2 p q := ⟨i 0, i 1, eq_ix2 i⟩
  rw [KNorm.normEntry_ix2, act_entry, scale_entry, shift_entry]
  rfl

/-- Every weakly fair execution of the idealized kernel terminates with the result array at the closed form and the
    arguments unchanged. -/
theorem run_value : θ_run defs (onTc (τ := τ) (main (F := Ideal))) ⟨m, fun _ => 0, ρ⟩ (fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_v34 m ρ c), (h c).2⟩) (Cert.KernelIdeal.KValue.run (F := Ideal) m ρ)

end Cert.KernelIdeal.KOut

end
-- ==== Proof.RefValue.lean ====
/-
  The two-pass form of the graph convolution with batch normalisation, read off the reference program one operation at
  a time.

  Write h(p, q) for the activations before normalisation: the aggregated-neighbour rows times W_rel, plus the bias,
  plus the node's own row times W_root. The program then takes, for each feature q, the mean μ_q = (Σ_n h(n, q)) / N,
  the variance (Σ_n (h(n, q) − μ_q)²) / N, and returns max((h(p, q) − μ_q) · rsqrt(var_q + ε) · γ_q + β_q, 0).
  Every step below reads one operation at an entry: a product of matrices is a row-by-column sum, a reduction along
  the node axis is a sum over the nodes started from zero, a broadcast repeats the entry of its operand, and the
  arithmetic is the extended reals' own. The aggregate itself is never opened: it enters only as an array.
  The statistics are stated for an arbitrary array of activations, so that nothing depends on how h was made.
-/
import proofs.«104694_j46986942218275_2_alg».proof.Proof.Spec
import proofs.«104694_j46986942218275_2_alg».proof.Proof.Gen.ReferenceIdeal.Read

noncomputable section

open scoped BigOperators

namespace Cert.ReferenceIdeal.RefValue

open Cert.ReferenceIdeal Cert.ReferenceIdeal.Gen Cert.ReferenceIdeal.Read Cert.GraphBn
open Idealize.ShloMosaic Idealize.ShloMosaic.ValueIdx

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 x5 x6 : (⟨S128, .f32⟩ : BufTy).Contents (Elt Ideal))

/-! ## Where each operation reads its operands, in coordinates -/

/-- Entry (p, q) of a product reads row p of the left factor at column k … -/
theorem lidx14_eq (p : Fin 100000) (q k : Fin 128) : lidx_main_v14 (ix2 p q) k = ix2 p k :=
  funext fun a => Fin.ext (by match a with | ⟨0, _⟩ => rfl | ⟨1, _⟩ => rfl)
/-- … and column q of the right factor at row k. -/
theorem ridx14_eq (p : Fin 100000) (q k : Fin 128) : ridx_main_v14 (ix2 p q) k = ix2 k q :=
  funext fun a => Fin.ext (by match a with | ⟨0, _⟩ => rfl | ⟨1, _⟩ => rfl)
theorem lidx18_eq (p : Fin 100000) (q k : Fin 128) : lidx_main_v18 (ix2 p q) k = ix2 p k :=
  funext fun a => Fin.ext (by match a with | ⟨0, _⟩ => rfl | ⟨1, _⟩ => rfl)
theorem ridx18_eq (p : Fin 100000) (q k : Fin 128) : ridx_main_v18 (ix2 p q) k = ix2 k q :=
  funext fun a => Fin.ext (by match a with | ⟨0, _⟩ => rfl | ⟨1, _⟩ => rfl)
/-- A vector over the features, made a row and repeated over the nodes, is read at the feature q: the bias … -/
theorem idx1516_eq (p : Fin 100000) (q : Fin 128) : idx_main_v15 (idx_main_v16 (ix2 p q)) = ix1 q :=
  funext fun a => Fin.ext (by match a with | ⟨0, _⟩ => rfl)
/-- … the mean inside the variance … -/
theorem idx2324_eq (p : Fin 100000) (q : Fin 128) : idx_main_v23 (idx_main_v24 (ix2 p q)) = ix1 q :=
  funext fun a => Fin.ext (by match a with | ⟨0, _⟩ => rfl)
/-- … the mean inside the result … -/
theorem idx3031_eq (p : Fin 100000) (q : Fin 128) : idx_main_v30 (idx_main_v31 (ix2 p q)) = ix1 q :=
  funext fun a => Fin.ext (by match a with | ⟨0, _⟩ => rfl)
/-- … the reciprocal square root … -/
theorem idx3637_eq (p : Fin 100000) (q : Fin 128) : idx_main_v36 (idx_main_v37 (ix2 p q)) = ix1 q :=
  funext fun a => Fin.ext (by match a with | ⟨0, _⟩ => rfl)
/-- … the scale γ … -/
theorem idx3940_eq (p : Fin 100000) (q : Fin 128) : idx_main_v39 (idx_main_v40 (ix2 p q)) = ix1 q :=
  funext fun a => Fin.ext (by match a with | ⟨0, _⟩ => rfl)
/-- … and the shift β. -/
theorem idx4243_eq (p : Fin 100000) (q : Fin 128) : idx_main_v42 (idx_main_v43 (ix2 p q)) = ix1 q :=
  funext fun a => Fin.ext (by match a with | ⟨0, _⟩ => rfl)
/-- A sum along the node axis at the feature q reads the entries (k, q). -/
theorem idx20_eq (q : Fin 128) (k : Fin 100000) : idx_main_v20 (ix1 q) k = ix2 k q :=
  funext fun a => Fin.ext (by match a with | ⟨0, _⟩ => rfl | ⟨1, _⟩ => rfl)
theorem idx27_eq (q : Fin 128) (k : Fin 100000) : idx_main_v27 (ix1 q) k = ix2 k q :=
  funext fun a => Fin.ext (by match a with | ⟨0, _⟩ => rfl | ⟨1, _⟩ => rfl)

/-! ## The activations -/

/-- The activations at (p, q): (Σ_k aggr(p, k) · W_rel(k, q) + b(q)) + Σ_k x(p, k) · W_root(k, q), with the aggregate
    kept as the array the program computed. -/
theorem act_apply (p : Fin 100000) (q : Fin 128) :
    val_main_v19 (F := Ideal) x0 x1 x2 x3 x4 (ix2 p q)
      = hAt x0 (val_main_v13 (F := Ideal) x0 x1) x2 x3 x4 p q := by
  rw [val_main_v19_apply, val_main_v17_apply, val_main_v14_apply, val_main_v18_apply, val_main_v16_apply,
    val_main_v15_apply, idx1516_eq]
  simp only [lidx14_eq, ridx14_eq, lidx18_eq, ridx18_eq, Ideal.addf_def]
  rfl

/-! ## The statistics of an arbitrary array of activations -/

section Stats

variable (hh : (⟨S100000x128, .f32⟩ : BufTy).Contents (Elt Ideal))
  (e : val_main_v19 (F := Ideal) x0 x1 x2 x3 x4 = hh)
include e

/-- The column mean: the sum over the nodes, started from zero, divided by the node count. -/
theorem mean_apply (q : Fin 128) :
    val_main_v22 (F := Ideal) x0 x1 x2 x3 x4 (ix1 q) = mean (fun p q => hh (ix2 p q)) q := by
  rw [val_main_v22_apply, val_main_v20_apply, val_main_v21_apply, val_main_cst_1_apply, val_main_cst_2_apply, e]
  simp only [idx20_eq, Ideal.hostDivf_def, Ideal.ofBits_def, Ideal.ofBits_zero_f32, zero_add]
  rfl

/-- An entry less its column's mean, as the variance takes it. -/
theorem centred25_apply (p : Fin 100000) (q : Fin 128) :
    val_main_v25 (F := Ideal) x0 x1 x2 x3 x4 (ix2 p q) = hh (ix2 p q) - mean (fun p q => hh (ix2 p q)) q := by
  rw [val_main_v25_apply, val_main_v24_apply, val_main_v23_apply, idx2324_eq, mean_apply x0 x1 x2 x3 x4 hh e, e]
  rfl

/-- The same difference, as the result takes it. -/
theorem centred32_apply (p : Fin 100000) (q : Fin 128) :
    val_main_v32 (F := Ideal) x0 x1 x2 x3 x4 (ix2 p q) = hh (ix2 p q) - mean (fun p q => hh (ix2 p q)) q := by
  rw [val_main_v32_apply, val_main_v31_apply, val_main_v30_apply, idx3031_eq, mean_apply x0 x1 x2 x3 x4 hh e, e]
  rfl

/-- The two-pass variance: the sum over the nodes of the squared differences, divided by the node count. -/
theorem var_apply (q : Fin 128) :
    val_main_v29 (F := Ideal) x0 x1 x2 x3 x4 (ix1 q) = varR (fun p q => hh (ix2 p q)) q := by
  rw [val_main_v29_apply, val_main_v27_apply, val_main_v28_apply, val_main_cst_3_apply, val_main_cst_4_apply]
  have hs : ∀ k : Fin 100000, val_main_v26 (F := Ideal) x0 x1 x2 x3 x4 (idx_main_v27 (ix1 q) k)
      = (hh (ix2 k q) - mean (fun p q => hh (ix2 p q)) q) * (hh (ix2 k q) - mean (fun p q => hh (ix2 p q)) q) := by
    intro k
    rw [idx27_eq, val_main_v26_apply, centred25_apply x0 x1 x2 x3 x4 hh e]
    rfl
  simp only [hs, Ideal.hostDivf_def, Ideal.ofBits_def, Ideal.ofBits_zero_f32, zero_add]
  rfl

/-- The result at (p, q): the centred entry times the reciprocal square root of the variance plus ε, times γ, plus β,
    clamped below at zero. -/
theorem out_apply (p : Fin 100000) (q : Fin 128) :
    val_main_v45 (F := Ideal) x0 x1 x2 x3 x4 x5 x6 (ix2 p q)
      = outR (fun p q => hh (ix2 p q)) (fun q => x5 (ix1 q)) (fun q => x6 (ix1 q)) p q := by
  rw [val_main_v45_apply, val_main_v44_apply, val_main_v41_apply, val_main_v38_apply,
    centred32_apply x0 x1 x2 x3 x4 hh e, val_main_v37_apply, val_main_v36_apply, idx3637_eq, val_main_v35_apply,
    val_main_v34_apply, var_apply x0 x1 x2 x3 x4 hh e, val_main_v33_apply, val_main_cst_5_apply,
    val_main_v40_apply, val_main_v39_apply, idx3940_eq, val_main_v43_apply, val_main_v42_apply, idx4243_eq,
    val_main_call0_v0_apply, val_main_call0_cst_apply]
  simp only [Ideal.maximumf_def, Ideal.addf_def, Ideal.mulf_def, Ideal.hostUnary_rsqrt_def, Ideal.ofBits_def]
  rfl

end Stats

/-! ## The reference's value -/

/-- The array of activations is the closed form, entry by entry. -/
theorem act_eq :
    (fun (p : Fin 100000) (q : Fin 128) => val_main_v19 (F := Ideal) x0 x1 x2 x3 x4 (ix2 p q))
      = hAt x0 (val_main_v13 (F := Ideal) x0 x1) x2 x3 x4 :=
  funext fun p => funext fun q => act_apply x0 x1 x2 x3 x4 p q

/-- The reference's result at (p, q) is the two-pass form of the activations, with γ and β read by feature. -/
theorem ref_value_ix2 (p : Fin 100000) (q : Fin 128) :
    val_main_v45 (F := Ideal) x0 x1 x2 x3 x4 x5 x6 (ix2 p q)
      = outR (hAt x0 (val_main_v13 (F := Ideal) x0 x1) x2 x3 x4)
          (fun q => x5 (ix1 q)) (fun q => x6 (ix1 q)) p q := by
  rw [out_apply x0 x1 x2 x3 x4 x5 x6 _ rfl p q, act_eq]

/-- The same at an arbitrary index, by its two coordinates. -/
theorem ref_value (i : S100000x128.Idx) :
    val_main_v45 (F := Ideal) x0 x1 x2 x3 x4 x5 x6 i
      = outR (hAt x0 (val_main_v13 (F := Ideal) x0 x1) x2 x3 x4)
          (fun q => x5 (ix1 q)) (fun q => x6 (ix1 q)) (i 0) (i 1) := by
  obtain ⟨p, q, rfl⟩ : ∃ (p : Fin 100000) (q : Fin 128), i = ix2 p q := ⟨i 0, i 1, eq_ix2 i⟩
  exact ref_value_ix2 x0 x1 x2 x3 x4 x5 x6 p q

end Cert.ReferenceIdeal.RefValue

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.BnAlgebra.lean ====
/-
  The one-pass and the two-pass batch normalisation agree on finite activations.

  Every activation, scale and shift being a real number, each quantity of either form is the image of a real one
  under the inclusion of the reals in the extended reals: a finite sum of reals, a quotient by the non-zero count
  N = 100000, products, differences and maxima. Over the reals, with μ = (Σ h)/N,

      Σ (h − μ)² = Σ h² − 2 μ Σ h + N μ² = Σ h² − N μ²,

  so the two variances Σ(h − μ)²/N and Σh²/N − μ² are one number v, and v ≥ 0 as a sum of squares over a positive
  count, so clamping it at zero changes nothing. The offset ε is a positive real, hence v + ε > 0 and the reciprocal
  square root of v + ε is the real r = (√(v + ε))⁻¹. What remains is

      h · (γ r) + (β − μ · (γ r)) = (h − μ) · r · γ + β,

  an identity of real polynomials, and the two results are the maxima of these equal numbers with zero.

  The last statement: the activations before normalisation, two sums of 128 products and a bias, are finite when
  their factors are.
-/
import Mathlib.Data.EReal.Basic
import Mathlib.Data.EReal.Operations
import Mathlib.Data.EReal.Inv
import Mathlib.Analysis.SpecialFunctions.Pow.Real
import Mathlib.Tactic
import proofs.«104694_j46986942218275_2_alg».proof.Proof.Spec
import proofs.«104694_j46986942218275_2_alg».proof.Proof.LibFinite

noncomputable section

open scoped BigOperators

namespace Cert.GraphBn

open Idealize.ShloMosaic Idealize.ShloMosaic.ValueIdx Cert.LibFinite

/-! ## The three words -/

/-- The count word is the real 100000: exponent field 143, fraction field 4411392, so (2²³ + 4411392) · 2⁻⁷. -/
theorem nWord_eq : nWord = ((100000 : ℝ) : EReal) := by
  unfold nWord
  simp [Ideal.ofBits, Ideal.ieee, -EReal.coe_mul]; norm_num

/-- The offset word is a positive real (a positive significand times a power of two). -/
theorem epsWord_pos : ∃ e : ℝ, 0 < e ∧ epsWord = (e : EReal) := by
  unfold epsWord
  simp [Ideal.ofBits, Ideal.ieee, -EReal.coe_mul]

/-- The zero word is zero. -/
theorem zeroWord_eq : zeroWord = 0 := Ideal.ofBits_zero_f32

/-! ## Reals inside the extended reals -/

/-- A finite sum of reals, summed in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of a real by a non-zero real is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- The maximum of two reals, taken in the extended reals, is the real maximum. -/
theorem coe_max (x y : ℝ) : max (x : EReal) (y : EReal) = ((max x y : ℝ) : EReal) :=
  (EReal.coe_strictMono.monotone.map_max).symm

/-- The reciprocal square root of a positive real. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-! ## The variance identity over the reals -/

/-- With μ = (Σ f)/N over an index set of N > 0 elements, the mean of the squared deviations is the mean of the
    squares minus μ²: expand the square, sum term by term, and use Σ f = N μ. -/
theorem real_var {ι : Type} [Fintype ι] (f : ι → ℝ) (N : ℝ) (hN : 0 < N) (hcard : (Fintype.card ι : ℝ) = N) :
    (∑ i, (f i - (∑ j, f j) / N) * (f i - (∑ j, f j) / N)) / N
      = (∑ i, f i * f i) / N - (∑ j, f j) / N * ((∑ j, f j) / N) := by
  set S : ℝ := ∑ j, f j with hS
  have h1 : ∑ i, (f i - S / N) * (f i - S / N) = (∑ i, f i * f i) - 2 * (S / N) * S + N * (S / N * (S / N)) := by
    have : ∀ i, (f i - S / N) * (f i - S / N) = f i * f i - 2 * (S / N) * f i + S / N * (S / N) := fun i => by ring
    rw [Finset.sum_congr rfl fun i _ => this i, Finset.sum_add_distrib, Finset.sum_sub_distrib, ← Finset.mul_sum,
      Finset.sum_const, Finset.card_univ, nsmul_eq_mul, hcard]
  rw [h1]
  field_simp
  ring

/-- The mean of squared deviations is not negative. -/
theorem real_var_nonneg {ι : Type} [Fintype ι] (f : ι → ℝ) (m N : ℝ) (hN : 0 < N) :
    0 ≤ (∑ i, (f i - m) * (f i - m)) / N :=
  div_nonneg (Finset.sum_nonneg fun i _ => mul_self_nonneg _) hN.le

/-! ## The quantities of both forms on real activations -/

section
variable (hr : Fin 100000 → Fin 128 → ℝ)

/-- The real column mean. -/
def meanR (q : Fin 128) : ℝ := (∑ n, hr n q) / 100000
/-- The real variance, as the mean of squared deviations. -/
def varRR (q : Fin 128) : ℝ := (∑ n, (hr n q - meanR hr q) * (hr n q - meanR hr q)) / 100000

theorem varRR_nonneg (q : Fin 128) : 0 ≤ varRR hr q :=
  real_var_nonneg (fun n => hr n q) (meanR hr q) 100000 (by norm_num)

theorem mean_coe (q : Fin 128) : mean (fun p q => ((hr p q : ℝ) : EReal)) q = ((meanR hr q : ℝ) : EReal) := by
  show Ideal.div (∑ n : Fin 100000, ((hr n q : ℝ) : EReal)) nWord = _
  rw [coe_sum, nWord_eq, div_coe_coe _ (by norm_num)]
  rfl

theorem varR_coe (q : Fin 128) : varR (fun p q => ((hr p q : ℝ) : EReal)) q = ((varRR hr q : ℝ) : EReal) := by
  show Ideal.div (∑ n : Fin 100000, (((hr n q : ℝ) : EReal) - mean (fun p q => ((hr p q : ℝ) : EReal)) q)
      * (((hr n q : ℝ) : EReal) - mean (fun p q => ((hr p q : ℝ) : EReal)) q)) nWord = _
  rw [mean_coe]
  simp only [← EReal.coe_sub, ← EReal.coe_mul]
  rw [coe_sum, nWord_eq, div_coe_coe _ (by norm_num)]
  rfl

theorem varK_coe (q : Fin 128) : varK (fun p q => ((hr p q : ℝ) : EReal)) q = ((varRR hr q : ℝ) : EReal) := by
  show max (Ideal.div (∑ n : Fin 100000, ((hr n q : ℝ) : EReal) * ((hr n q : ℝ) : EReal)) nWord
      - mean (fun p q => ((hr p q : ℝ) : EReal)) q * mean (fun p q => ((hr p q : ℝ) : EReal)) q) zeroWord = _
  rw [mean_coe, zeroWord_eq]
  simp only [← EReal.coe_mul]
  rw [coe_sum, nWord_eq, div_coe_coe _ (by norm_num), ← EReal.coe_sub, ← EReal.coe_zero, coe_max]
  have hid : (∑ n, hr n q * hr n q) / 100000 - meanR hr q * meanR hr q = varRR hr q := by
    have := real_var (fun n => hr n q) 100000 (by norm_num) (by simp)
    unfold varRR meanR
    exact this.symm
  rw [hid, max_eq_left (varRR_nonneg hr q)]

end

/-! ## The two results agree -/

theorem out_eq (h : Fin 100000 → Fin 128 → EReal) (γ β : Fin 128 → EReal)
    (hh : ∀ p q, Cert.LibFinite.IsFin (h p q)) (hγ : ∀ q, Cert.LibFinite.IsFin (γ q))
    (hβ : ∀ q, Cert.LibFinite.IsFin (β q)) (p : Fin 100000) (q : Fin 128) :
    outK h γ β p q = outR h γ β p q := by
  choose hr hhr using hh
  choose g hg using hγ
  choose b hb using hβ
  obtain rfl : h = fun p q => ((hr p q : ℝ) : EReal) := funext fun p => funext fun q => hhr p q
  obtain rfl : γ = fun q => ((g q : ℝ) : EReal) := funext hg
  obtain rfl : β = fun q => ((b q : ℝ) : EReal) := funext hb
  obtain ⟨e, he, hee⟩ := epsWord_pos
  have hpos : 0 < varRR hr q + e := add_pos_of_nonneg_of_pos (varRR_nonneg hr q) he
  show max (((hr p q : ℝ) : EReal) * (((g q : ℝ) : EReal) * Ideal.rsqrt (varK (fun p q => ((hr p q : ℝ) : EReal)) q + epsWord))
        + (((b q : ℝ) : EReal) - mean (fun p q => ((hr p q : ℝ) : EReal)) q
            * (((g q : ℝ) : EReal) * Ideal.rsqrt (varK (fun p q => ((hr p q : ℝ) : EReal)) q + epsWord)))) zeroWord
     = max ((((hr p q : ℝ) : EReal) - mean (fun p q => ((hr p q : ℝ) : EReal)) q)
        * Ideal.rsqrt (varR (fun p q => ((hr p q : ℝ) : EReal)) q + epsWord) * ((g q : ℝ) : EReal) + ((b q : ℝ) : EReal)) zeroWord
  rw [varK_coe, varR_coe, mean_coe, hee, ← EReal.coe_add, rsqrt_coe_pos hpos]
  simp only [← EReal.coe_mul, ← EReal.coe_sub, ← EReal.coe_add]
  congr 2
  ring

/-! ## The activations are finite -/

theorem hAt_fin (x aggr : (⟨2, ![100000, 128]⟩ : Shape).Idx → EReal) (wroot wrel : (⟨2, ![128, 128]⟩ : Shape).Idx → EReal)
    (brel : (⟨1, ![128]⟩ : Shape).Idx → EReal)
    (hx : ∀ i, IsFin (x i)) (ha : ∀ i, IsFin (aggr i)) (hwr : ∀ i, IsFin (wroot i)) (hwl : ∀ i, IsFin (wrel i))
    (hb : ∀ i, IsFin (brel i)) (p : Fin 100000) (q : Fin 128) : IsFin (hAt x aggr wroot wrel brel p q) := by
  unfold hAt
  exact ((IsFin.sum _ _ fun k _ => (ha _).mul (hwl _)).add (hb _)).add (IsFin.sum _ _ fun k _ => (hx _).mul (hwr _))

end Cert.GraphBn

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«104694_j46986942218275_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.Finite.lean ====
/-
  Finiteness of the inputs and of the aggregated neighbour features.

  The precondition is the conjunction, over the six float arrays, of "every entry is below +∞ in absolute value"; each
  conjunct says that the array's entries are real numbers.

  The aggregation adds, to a zero array, each gathered source row at the row its destination index names: the entry
  (i, c) of the result is zero plus the sum of the entries (src(e), c) of the features over the edges e whose
  destination is i. A finite sum of real numbers is a real number, whatever the edges are.
-/
import proofs.«104694_j46986942218275_2_alg».proof.Proof.Spec
import proofs.«104694_j46986942218275_2_alg».proof.Proof.LibFinite
import proofs.«104694_j46986942218275_2_alg».proof.Proof.LibFinDecode
import proofs.«104694_j46986942218275_2_alg».proof.Proof.LibGatherRows
import proofs.«104694_j46986942218275_2_alg».proof.Proof.LibScatterRows
import proofs.«104694_j46986942218275_2_alg».proof.Pre_finite_inputs
import proofs.«104694_j46986942218275_2_alg».proof.Proof.Gen.Pre_finite_inputs
import proofs.«104694_j46986942218275_2_alg».proof.Proof.Gen.ReferenceIdeal
import proofs.«104694_j46986942218275_2_alg».proof.Proof.Gen.ReferenceIdeal.Read
import Idealize.ShloMosaic.Lib.ReduceAll

noncomputable section

open scoped BigOperators

namespace Cert.GraphBn

open Idealize.ShloMosaic Idealize.ShloMosaic.ValueIdx Cert.LibFinite

/-- Under the precondition every entry of every float input is a real number. -/
theorem pre_fin (a0 : FVec Ideal Cert.Pre_finite_inputs.S100000x128 .f32) (a1 : IVec Cert.Pre_finite_inputs.S2x1600000 32)
    (a2 a3 : FVec Ideal Cert.Pre_finite_inputs.S128x128 .f32) (a4 a5 a6 : FVec Ideal Cert.Pre_finite_inputs.S128 .f32)
    (hpre : Cert.Pre_finite_inputs.fn (F := Ideal) a0 a1 a2 a3 a4 a5 a6 = fun _ => 1#1) :
    (∀ i, IsFin (a0 i)) ∧ (∀ i, IsFin (a2 i)) ∧ (∀ i, IsFin (a3 i)) ∧ (∀ i, IsFin (a4 i)) ∧ (∀ i, IsFin (a5 i))
      ∧ (∀ i, IsFin (a6 i)) := by
  have h := congrFun hpre ix0
  dsimp only [Cert.Pre_finite_inputs.fn, Cert.Pre_finite_inputs.fn_part1, andi] at h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e0, e2⟩ := IntOp.andi_eq_one.1 h
  exact ⟨Cert.LibFinDecode.all_fin a0 _ _ _ e0, Cert.LibFinDecode.all_fin a2 _ _ _ e2,
    Cert.LibFinDecode.all_fin a3 _ _ _ e3, Cert.LibFinDecode.all_fin a4 _ _ _ e4,
    Cert.LibFinDecode.all_fin a5 _ _ _ e5, Cert.LibFinDecode.all_fin a6 _ _ _ e6⟩

/-- The reference's scatter record is the row scatter's dimension numbers. -/
theorem scatter_rec_eq : Cert.ReferenceIdeal.scatter_S100000x128_S1600000x1_S1600000x128_1_0_0_1
    = ScatterRows.rowDims 100000 1600000 128
        Cert.ReferenceIdeal.Facts₀.scatter_S100000x128_S1600000x1_S1600000x128_1_0_0_1_wf := rfl

/-- The reference's gather record is the row gather's dimension numbers. -/
theorem gather_rec_eq : Cert.ReferenceIdeal.gather_S100000x128_S1600000x1_S1600000x128_1_0_n_n_0_1_1128
    = GatherRows.rowDims 100000 1600000 128
        Cert.ReferenceIdeal.Facts₀.gather_S100000x128_S1600000x1_S1600000x128_1_0_n_n_0_1_1128_wf := rfl

/-- A row scatter-add of gathered rows of a finite array onto a finite array is finite, whatever the two index arrays:
    each entry is the operand's entry plus a finite sum of entries of the gathered array. -/
theorem scatter_gather_fin
    (wfs : ScatterDims.WF ⟨2, ![100000, 128]⟩ ⟨2, ![1600000, 1]⟩ ⟨2, ![1600000, 128]⟩ [1] [0] [0] 1)
    (wfg : GatherDims.WF ⟨2, ![100000, 128]⟩ ⟨2, ![1600000, 1]⟩ ⟨2, ![1600000, 128]⟩ [1] [0] [] [0] [] 1 ![1, 128])
    (x0 z : (⟨2, ![100000, 128]⟩ : Shape).Idx → EReal) (dst src : IVec ⟨2, ![1600000, 1]⟩ 32)
    (hx : ∀ i, IsFin (x0 i)) (hz : ∀ i, IsFin (z i)) (p : Fin 100000) (c : Fin 128) :
    IsFin (Ideal.hostScatterAdd (ScatterRows.rowDims 100000 1600000 128 wfs) z dst
      (Host.gather (GatherRows.rowDims 100000 1600000 128 wfg) x0 src) (ix2 p c)) := by
  rw [ScatterRows.scatterAdd_rows_apply]
  refine IsFin.add (hz _) (IsFin.sum _ _ fun e _ => ?_)
  rw [GatherRows.gather_rows_apply (by norm_num)]
  exact hx _

/-- On the extended reals the host's accumulating scatter is the exact one. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The zero array the aggregation starts from is finite. -/
theorem zeros_fin (j : Cert.ReferenceIdeal.S100000x128.Idx) : IsFin (Cert.ReferenceIdeal.Read.val_main_v11 (F := Ideal) j) := by
  rw [Cert.ReferenceIdeal.Read.val_main_v11_apply, Cert.ReferenceIdeal.Read.val_main_cst_apply, Ideal.ofBits_def,
    Ideal.ofBits_zero_f32]
  exact IsFin.zero

/-- The aggregated neighbour features are finite when the features are. -/
theorem aggr_fin (x0 : (⟨Cert.ReferenceIdeal.S100000x128, .f32⟩ : BufTy).Contents (Elt Ideal))
    (x1 : (⟨Cert.ReferenceIdeal.S2x1600000, .i32⟩ : BufTy).Contents (Elt Ideal))
    (hx : ∀ i, IsFin (x0 i)) (i : Cert.ReferenceIdeal.S100000x128.Idx) :
    IsFin (Cert.ReferenceIdeal.Read.val_main_v13 (F := Ideal) x0 x1 i) := by
  unfold Cert.ReferenceIdeal.Read.val_main_v13 Cert.ReferenceIdeal.Read.val_main_v10
  generalize Cert.ReferenceIdeal.Read.val_main_v12 (F := Ideal) x1 = dst
  generalize Cert.ReferenceIdeal.Read.val_main_v9 (F := Ideal) x1 = src
  obtain ⟨p, c, rfl⟩ : ∃ (p : Fin 100000) (c : Fin 128), i = ix2 p c := ⟨i 0, i 1, eq_ix2 i⟩
  rw [scatter_rec_eq, gather_rec_eq]
  rw [scatterAdd_ideal]
  have hz := zeros_fin
  generalize Cert.ReferenceIdeal.Read.val_main_v11 (F := Ideal) = z at hz ⊢
  exact scatter_gather_fin _ _ x0 z dst src hx hz p c

end Cert.GraphBn

end
-- ==== Proof.lean ====
/-
  A graph convolution with batch normalisation over the node axis and a ReLU, on 100000 nodes and 128 features: the
  Pallas kernel against its jnp reference, over the extended reals.

  Both programs first form the neighbour aggregate (a row gather of x by the edges' sources, scatter-added by their
  destinations) with the same host operations, and the activations h = aggr · W_rel + b + x · W_root. The kernel
  computes h block by block on the matrix unit while accumulating the column sums of h and of h² over a 50-point grid,
  forms on the host the mean μ = Σh/N, the one-pass variance max(Σh²/N − μ², 0), the scale γ · rsqrt(var + ε) and the
  shift β − μ · scale, and in a second pointwise kernel returns max(h · scale + shift, 0). The reference computes μ,
  the two-pass variance Σ(h − μ)²/N and max((h − μ) · rsqrt(var + ε) · γ + β, 0).

  Roundings are the identity at the ideal values, a matrix product is the row-by-column sum, and a sum does not depend on
  how it is cut into blocks, so both sides are closed forms of the same h. For FINITE h, γ, β the two closed forms agree:
  over the reals Σ(h − μ)² = Σh² − Nμ², which is non-negative, so the clamp is the identity, and
  h·(γ r) + (β − μ·(γ r)) = (h − μ)·r·γ + β. The precondition makes the inputs finite, hence the aggregate (finite sums
  of entries of x) and h. The frames are the generated ones; the idealization rewrote nothing.
-/
import proofs.«104694_j46986942218275_2_alg».proof.Defs
import proofs.«104694_j46986942218275_2_alg».proof.Proof.Gen.Kernel
import proofs.«104694_j46986942218275_2_alg».proof.Proof.Gen.Kernel.Skeleton
import proofs.«104694_j46986942218275_2_alg».proof.Proof.Gen.Kernel.Launch
import proofs.«104694_j46986942218275_2_alg».proof.Proof.Gen.Kernel.Points
import proofs.«104694_j46986942218275_2_alg».proof.Proof.Gen.Kernel.Frame
import proofs.«104694_j46986942218275_2_alg».proof.Proof.Gen.KernelIdeal
import proofs.«104694_j46986942218275_2_alg».proof.Proof.Gen.KernelIdeal.Skeleton
import proofs.«104694_j46986942218275_2_alg».proof.Proof.Gen.KernelIdeal.Launch
import proofs.«104694_j46986942218275_2_alg».proof.Proof.Gen.KernelIdeal.Points
import proofs.«104694_j46986942218275_2_alg».proof.Proof.Gen.KernelIdeal.Frame
import proofs.«104694_j46986942218275_2_alg».proof.Proof.Gen.ReferenceIdeal
import proofs.«104694_j46986942218275_2_alg».proof.Proof.Gen.ReferenceIdeal.Run
import proofs.«104694_j46986942218275_2_alg».proof.Proof.Gen.ReferenceIdeal.Read
import proofs.«104694_j46986942218275_2_alg».proof.Proof.Gen.Pre_finite_inputs
import proofs.«104694_j46986942218275_2_alg».proof.Proof.KValue
import proofs.«104694_j46986942218275_2_alg».proof.Proof.RefValue
import proofs.«104694_j46986942218275_2_alg».proof.Proof.BnAlgebra
import proofs.«104694_j46986942218275_2_alg».proof.Proof.Finite
import Idealize.ShloMosaic.Adequacy
import Idealize.ShloMosaic.Init

noncomputable section

namespace Cert.Proof

open Idealize.ShloMosaic Idealize.ShloMosaic.TcCoe Idealize.SL.Sem

/-- The printed kernel runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the kernel's one-pass
    closed form and the reference's two-pass closed form of the same activations, equal because the precondition makes
    the activations, γ and β finite. -/
theorem algebraic : Cert.algebraic_KernelIdeal_ReferenceIdeal := by
  intro m ρ m' ρ' hpre hagree
  refine ⟨fun c => Cert.KernelIdeal.KOut.result m c, Cert.KernelIdeal.KOut.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨f0, f2, f3, f4, f5, f6⟩ := Cert.GraphBn.pre_fin _ _ _ _ _ _ _ (hpre c)
  rw [Cert.ReferenceIdeal.Read.val_main_v45_eq, a0, a1, a2, a3, a4, a5, a6]
  funext i
  rw [Cert.ReferenceIdeal.RefValue.ref_value]
  exact (Cert.GraphBn.out_eq _ _ _
    (fun p q => Cert.GraphBn.hAt_fin _ _ _ _ _ f0 (Cert.GraphBn.aggr_fin _ _ f0) f2 f3 f4 p q)
    (fun q => f5 _) (fun q => f6 _) (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
